-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x16 .f32) (main_arg4 : FVec F S16 .f32) (main_arg5 : FVec F S16x7 .f32) (main_arg6 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x7, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S3300000x1, .f32⟩
  | .hbm, ⟨79, _⟩ => ⟨S3300000x7, .f32⟩
  | .hbm, ⟨80, _⟩ => ⟨S3300000x7, .f32⟩
  | .hbm, ⟨81, _⟩ => ⟨S_, .f32⟩
  | .hbm, ⟨82, _⟩ => ⟨S100000x7, .f32⟩
  | .hbm, ⟨83, _⟩ => ⟨S3300000x1, .i32⟩
  | .hbm, ⟨84, _⟩ => ⟨S100000x7, .f32⟩
  | .hbm, ⟨85, _⟩ => ⟨S1x7, .f32⟩
  | .hbm, ⟨86, _⟩ => ⟨S100000x7, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S100000x7.size a
  hwx3_2 : ∀ i : grid3.Coords, EltTy.bits .f32 = 32 ∨ (Rect.block (s := S100000x7) S10000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x16, .f32⟩
  | 4 => ⟨S16, .f32⟩
  | 5 => ⟨S16x7, .f32⟩
  | 6 => ⟨S7, .f32⟩
  | 7 => ⟨S100000x16, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x7, .f32⟩
  | 73 => ⟨S1x3200000, .i32⟩
  | 74 => ⟨S3200000, .i32⟩
  | 75 => ⟨S1x3200000, .i32⟩
  | 76 => ⟨S3200000, .i32⟩
  | 77 => ⟨S100000, .i32⟩
  | 78 => ⟨S3300000, .i32⟩
  | 79 => ⟨S3300000, .i32⟩
  | 80 => ⟨S_, .f32⟩
  | 81 => ⟨S100000, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S_, .i32⟩
  | 116 => ⟨S3300000, .i32⟩
  | 117 => ⟨S3300000, .i1⟩
  | 118 => ⟨S_, .i32⟩
  | 119 => ⟨S3300000, .i32⟩
  | 120 => ⟨S3300000, .i32⟩
  | 121 => ⟨S3300000, .i32⟩
  | 122 => ⟨S3300000x1, .i32⟩
  | 123 => ⟨S3300000x7, .f32⟩
  | 124 => ⟨S3300000x1, .f32⟩
  | 125 => ⟨S3300000x7, .f32⟩
  | 126 => ⟨S3300000x7, .f32⟩
  | 127 => ⟨S_, .f32⟩
  | _ => ⟨S100000x128, .f32⟩

abbrev hbmTy0_1 (i : Nat) : BufTy := match i % 128 with
  | 0 => ⟨S100000x7, .f32⟩
  | 1 => ⟨S3300000x1, .i32⟩
  | 2 => ⟨S100000x7, .f32⟩
  | 3 => ⟨S1x7, .f32⟩
  | 4 => ⟨S100000x7, .f32⟩
  | 5 => ⟨S100000x7, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x7, .f32⟩
  | 13 => ⟨S100000x7, .f32⟩
  | 14 => ⟨S100000x7, .f32⟩
  | 15 => ⟨S_, .f32⟩
  | 16 => ⟨S100000, .f32⟩
  | 17 => ⟨S100000x1, .f32⟩
  | 18 => ⟨S100000x1, .f32⟩
  | 19 => ⟨S100000x7, .f32⟩
  | 20 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.ValueRun.lean ====
/-
  The kernel program run with its result kept. Its @main is nine segments — host operations, then the first
  projection's grid, host operations, the bias-and-clamp grid, the second projection's grid, host operations, the
  bias-and-log-softmax grid — and every weakly fair execution of them terminates with every unscoped buffer at the last
  boundary's contents. Read at the result buffer as well as at the arguments, that is: the result holds what the
  last grid's write-backs leave, and the arguments are as launched.
-/
import proofs.«135346_j21706764714346_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the last segment
    leaves there and the seven arguments as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibBlockRows.lean ====
/-
  What a block of rows computes, read at an entry, on the extended reals.

  A block is an [m, n] array of rows cut out of a longer array. Three computations on a block:
  * the plain product of an [m, k] block with a [k, n] matrix, accumulated into zero, both operands first narrowed to
    a shorter float format (the identity on exact values): entry (p, q) is Σ_c x0(p, c) · x1(c, q) (`narrowedMatmul_apply`);
  * a one-row matrix repeated down the block and added, entry (p, q) being x0(p, q) + x1(0, q) (`biasBlock_apply`), and
    the same clamped below at zero (`biasReluBlock_apply`);
  * the vector chain of a log-softmax along the rows — the row maximum from -∞ laid out as a column and subtracted, the
    exponentials summed from zero, the logarithm of the column of sums subtracted —, entry (p, q) being the log-softmax
    of row p at column q (`vecLogSoftmax_apply`).
  Each entry depends on row p of the block alone, which is why a block of an array computes the array's rows.
-/
import Idealize.ShloMosaic.PureOps.Ideal.Laws
import Idealize.ShloMosaic.Lib.ValueIdx
import Idealize.ShloMosaic.Lib.ValueLayout
import Idealize.ShloMosaic.Lib.Pipeline.Value
import proofs.«135346_j21706764714346_1_alg».proof.Proof.LibPlainMatmul
import proofs.«135346_j21706764714346_1_alg».proof.Proof.LibColumnCast
import proofs.«135346_j21706764714346_1_alg».proof.Proof.LibColumnBroadcast
import proofs.«135346_j21706764714346_1_alg».proof.Proof.LibRowWise

noncomputable section

open scoped BigOperators

namespace Cert.BlockRows

open Idealize.ShloMosaic Idealize.ShloMosaic.ValueIdx Cert.RowWise

/-- Narrowing both operands changes no exact value: the product into zero reads Σ_c x0(p, c) · x1(c, q). -/
theorem narrowedMatmul_apply {m k n : ℕ} (x0 : FVec Ideal ⟨2, ![m, k]⟩ .f32) (x1 : FVec Ideal ⟨2, ![k, n]⟩ .f32)
    (ht : FTy.bf16.bits < FTy.f32.bits) (p : Fin m) (q : Fin n) :
    matmul (DotDims.plain m k n) none (truncf .bf16 x0 ht : FVec Ideal ⟨2, ![m, k]⟩ .bf16)
        (truncf .bf16 x1 ht : FVec Ideal ⟨2, ![k, n]⟩ .bf16) (constant ⟨2, ![m, n]⟩ .f32 0x00000000#32) (ix2 p q)
      = ∑ c : Fin k, x0 (ix2 p c) * x1 (ix2 c q) :=
  matmul_plain_zero_apply none _ _ p q

/-- A one-row matrix repeated down the block and added to it, at an entry. -/
theorem biasBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    addf (shapeCast ⟨2, ![m, n]⟩ x0 hc0) (broadcastTo ⟨2, ![m, n]⟩ (shapeCast ⟨2, ![1, n]⟩ x1 hc1) hb) (ix2 p q)
      = x0 (ix2 p q) + x1 (ix2 (0 : Fin 1) q) := by
  rw [shapeCast_self, shapeCast_self]
  show x0 (ix2 p q) + broadcastTo ⟨2, ![m, n]⟩ x1 hb (ix2 p q) = _
  rw [broadcastTo_1b_ab_apply]

/-- The same, clamped below at zero (zero kept as the all-zero f32 word). -/
theorem biasReluBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    maximumf (addf (shapeCast ⟨2, ![m, n]⟩ x0 hc0) (broadcastTo ⟨2, ![m, n]⟩ (shapeCast ⟨2, ![1, n]⟩ x1 hc1) hb))
        (broadcast ⟨2, ![m, n]⟩ (Scalar.ofBits .f32 0x00000000#32 : Ideal .f32)) (ix2 p q)
      = max (x0 (ix2 p q) + x1 (ix2 (0 : Fin 1) q)) (Ideal.ofBits .f32 0x00000000#32) := by
  show max (addf (shapeCast ⟨2, ![m, n]⟩ x0 hc0) (broadcastTo ⟨2, ![m, n]⟩ (shapeCast ⟨2, ![1, n]⟩ x1 hc1) hb) (ix2 p q)) _ = _
  rw [biasBlock_apply]
  rfl

/-- The vector log-softmax chain along the rows of Y reads, at (p, q), the log-softmax of row p at column q. -/
theorem vecLogSoftmax_apply {m n : ℕ} (Y : FVec Ideal ⟨2, ![m, n]⟩ .f32)
    (h : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    subf
        (subf Y (broadcastTo ⟨2, ![m, n]⟩ (shapeCast ⟨2, ![m, 1]⟩
          (multiReduction .maximumf [1] ⟨1, ![m]⟩ Y 0xFF800000#32 h hφ hmax) hcol) hsp))
        (broadcastTo ⟨2, ![m, n]⟩ (log (shapeCast ⟨2, ![m, 1]⟩
          (multiReduction .add [1] ⟨1, ![m]⟩
            (exp (subf Y (broadcastTo ⟨2, ![m, n]⟩ (shapeCast ⟨2, ![m, 1]⟩
              (multiReduction .maximumf [1] ⟨1, ![m]⟩ Y 0xFF800000#32 h hφ hmax) hcol) hsp)))
            0x00000000#32 h hφ hadd) hcol)) hsp) (ix2 p q)
      = logSoftmaxRow (fun k => Y (ix2 p k)) q := by
  have hshift : ∀ b : Fin n, broadcastTo ⟨2, ![m, n]⟩ (shapeCast ⟨2, ![m, 1]⟩
      (multiReduction .maximumf [1] ⟨1, ![m]⟩ Y 0xFF800000#32 h hφ hmax) hcol) hsp (ix2 p b)
        = rowMax (fun k => Y (ix2 p k)) := fun b => by
    rw [Cert.LibColumnBroadcast.broadcastTo_a1_ab_apply, Cert.LibColumnCast.shapeCast_a_a1_apply, vecRowMax_apply]
    rfl
  unfold logSoftmaxRow
  show (Y (ix2 p q) - _) - _ = _
  rw [hshift q, Cert.LibColumnBroadcast.broadcastTo_a1_ab_apply]
  show _ - Ideal.log (shapeCast ⟨2, ![m, 1]⟩ (multiReduction .add [1] ⟨1, ![m]⟩
      (exp (subf Y (broadcastTo ⟨2, ![m, n]⟩ (shapeCast ⟨2, ![m, 1]⟩
        (multiReduction .maximumf [1] ⟨1, ![m]⟩ Y 0xFF800000#32 h hφ hmax) hcol) hsp)))
      0x00000000#32 h hφ hadd) hcol (ix2 p (0 : Fin 1))) = _
  rw [Cert.LibColumnCast.shapeCast_a_a1_apply, vecRowSum_apply]
  refine congrArg (fun s => (Y (ix2 p q) - rowMax (fun k => Y (ix2 p k))) - Ideal.log s) ?_
  refine Finset.sum_congr rfl fun k _ => ?_
  show Ideal.exp (Y (ix2 p k) - _) = _
  rw [hshift k]

end Cert.BlockRows

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.Spec.lean ====
/-
  A two-layer graph convolution on 100000 nodes and 3200000 weighted edges, stage by stage, on the extended reals.

  Every node gets a self-loop of weight 1, so there are 3300000 edges: `src` and `dst` list their end points (the given
  edges, then node i to node i), `weights` their weights. The degree of node j is the sum of the weights of the edges
  ending at j; `invSqrtDeg` is its inverse square root where it is positive and 0 elsewhere; an edge's normalised
  weight (`norm`) is invSqrtDeg(src) · weight · invSqrtDeg(dst), negative end points first wrapped round by 100000
  (`wrap`). One layer sends the rows H (one per node) to `aggregate` H: row j is the sum over the edges e ending at j of
  norm(e) · H(src(e)). The network is
    out = logSoftmax (aggregate (relu (aggregate (x·W1) + b1) · W2) + b2),
  the softmax taken along each row. The two programs compute these same stages; they differ only in where a stage runs.
-/
import proofs.«135346_j21706764714346_1_alg».proof.Proof.Gen.ReferenceIdeal
import proofs.«135346_j21706764714346_1_alg».proof.Proof.LibRowWise

noncomputable section

namespace Cert.Gcn

open Idealize.ShloMosaic Cert.ReferenceIdeal Cert.ReferenceIdeal.Facts₀ Cert.ReferenceIdeal.Facts

/-- The contents of a buffer of shape s and element type e, at exact values. -/
abbrev Arr (s : Shape) (e : EltTy) := (⟨s, e⟩ : BufTy).Contents (Elt Ideal)

/-- Row r (0: sources, 1: destinations) of the edge list, followed by 0, 1, …, 99999 for the self-loops. -/
def src (ei : Arr S2x3200000 .i32) : Arr S3300000 .i32 :=
  concatenate S3300000 0 [⟨S3200000, shapeCast _ (extractStridedSlice S1x3200000 ![0, 0] ei slices_S2x3200000_S1x3200000_0_0) shapeCasts_S1x3200000_S3200000⟩, ⟨S100000, iotaInDim S100000 32 0⟩] concatenates_S3200000_S100000_S3300000_d0

def dst (ei : Arr S2x3200000 .i32) : Arr S3300000 .i32 :=
  concatenate S3300000 0 [⟨S3200000, shapeCast _ (extractStridedSlice S1x3200000 ![1, 0] ei slices_S2x3200000_S1x3200000_1_0) shapeCasts_S1x3200000_S3200000⟩, ⟨S100000, iotaInDim S100000 32 0⟩] concatenates_S3200000_S100000_S3300000_d0

/-- The edge weights, then weight 1 for each self-loop. -/
def weights (ew : FVec Ideal S3200000 .f32) : FVec Ideal S3300000 .f32 :=
  concatenate S3300000 0 [⟨S3200000, ew⟩, ⟨S100000, broadcastInDim S100000 ![] bcast_S_S100000 (constant (F := Ideal) S_ .f32 0x3F800000#32)⟩] concatenates_S3200000_S100000_S3300000_d0

/-- A negative node number counts from the end: 100000 is added to it. -/
def wrap (x : Arr S3300000 .i32) : Arr S3300000 .i32 :=
  select (cmpi .slt x (broadcastInDim S3300000 ![] bcast_S_S3300000 (constantI S_ 32 0#32)))
    (addi x (broadcastInDim S3300000 ![] bcast_S_S3300000 (constantI S_ 32 100000#32))) x

/-- The weighted in-degree of every node. -/
def degree (d : Arr S3300000 .i32) (w : FVec Ideal S3300000 .f32) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 d) w

/-- The inverse square root of a positive degree, 0 for the others. -/
def invSqrt (g : FVec Ideal S100000 .f32) : FVec Ideal S100000 .f32 :=
  select (cmpf .ogt g (broadcastInDim S100000 ![] bcast_S_S100000 (constant (F := Ideal) S_ .f32 0x00000000#32)))
    (Host.rsqrt (F := Ideal) g)
    (broadcastInDim S100000 ![] bcast_S_S100000 (id (constant (F := Ideal) S_ .f32 0x00000000#32)))

/-- A per-node quantity read at each edge's end point. -/
def atNodes (q : FVec Ideal S100000 .f32) (x : Arr S3300000 .i32) : FVec Ideal S3300000 .f32 :=
  Host.gather gather_S100000_S3300000x1_S3300000_n_0_n_n_0_1_1 q (broadcastInDim S3300000x1 ![0] bcast_S3300000_S3300000x1_0 (wrap x))

/-- The normalised weight of every edge, from the end points and the weights. -/
def normOf (s d : Arr S3300000 .i32) (w : FVec Ideal S3300000 .f32) : FVec Ideal S3300000 .f32 :=
  mulf (mulf (atNodes (invSqrt (degree d w)) s) w) (atNodes (invSqrt (degree d w)) d)

/-- One aggregation of 16-wide rows: row j is the sum over the edges e ending at j of nrm(e) · H(src e). -/
def aggregate16 (H : FVec Ideal S100000x16 .f32) (s d : Arr S3300000 .i32) (nrm : FVec Ideal S3300000 .f32) : FVec Ideal S100000x16 .f32 :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 d)
    (mulf (Host.gather gather_S100000x16_S3300000x1_S3300000x16_1_0_n_n_0_1_116 H (broadcastInDim S3300000x1 ![0] bcast_S3300000_S3300000x1_0 (wrap s)))
      (broadcastInDim S3300000x16 ![0, 1] bcast_S3300000x1_S3300000x16_0_1 (broadcastInDim S3300000x1 ![0] bcast_S3300000_S3300000x1_0 nrm)))

/-- The same for 7-wide rows. -/
def aggregate7 (H : FVec Ideal S100000x7 .f32) (s d : Arr S3300000 .i32) (nrm : FVec Ideal S3300000 .f32) : FVec Ideal S100000x7 .f32 :=
  Host.scatterAdd scatter_S100000x7_S3300000x1_S3300000x7_1_0_0_1
    (broadcastInDim S100000x7 ![] bcast_S_S100000x7 (constant (F := Ideal) S_ .f32 0x00000000#32))
    (broadcastInDim S3300000x1 ![0] bcast_S3300000_S3300000x1_0 d)
    (mulf (Host.gather gather_S100000x7_S3300000x1_S3300000x7_1_0_n_n_0_1_17 H (broadcastInDim S3300000x1 ![0] bcast_S3300000_S3300000x1_0 (wrap s)))
      (broadcastInDim S3300000x7 ![0, 1] bcast_S3300000x1_S3300000x7_0_1 (broadcastInDim S3300000x1 ![0] bcast_S3300000_S3300000x1_0 nrm)))

/-- The first layer's dense part: x · W1. -/
def project1 (x : FVec Ideal S100000x128 .f32) (W : FVec Ideal S128x16 .f32) : FVec Ideal S100000x16 .f32 :=
  Host.dotGeneral dot_S100000x128_S128x16_S100000x16_1_0_0_1_n_n none x W

/-- The second layer's dense part: h · W2. -/
def project2 (h : FVec Ideal S100000x16 .f32) (W : FVec Ideal S16x7 .f32) : FVec Ideal S100000x7 .f32 :=
  Host.dotGeneral dot_S100000x16_S16x7_S100000x7_1_0_0_1_n_n none h W

/-- The bias added to every row, then every entry clamped below at zero. -/
def biasRelu (Z : FVec Ideal S100000x16 .f32) (b : FVec Ideal S16 .f32) : FVec Ideal S100000x16 .f32 :=
  maximumf (addf Z (broadcastInDim S100000x16 ![0, 1] bcast_S1x16_S100000x16_0_1 (broadcastInDim S1x16 ![1] bcast_S16_S1x16_1 b)))
    (broadcastInDim S100000x16 ![] bcast_S_S100000x16 (constant (F := Ideal) S_ .f32 0x00000000#32))

/-- The bias added to every row. -/
def addBias7 (Z : FVec Ideal S100000x7 .f32) (b : FVec Ideal S7 .f32) : FVec Ideal S100000x7 .f32 :=
  addf Z (broadcastInDim S100000x7 ![0, 1] bcast_S1x7_S100000x7_0_1 (broadcastInDim S1x7 ![1] bcast_S7_S1x7_1 b))

/-- The logarithm of the softmax of every row. -/
def logSoftmax (Z : FVec Ideal S100000x7 .f32) : FVec Ideal S100000x7 .f32 :=
  Cert.RowWise.hostLogSoftmax bcast_S_S100000 bcast_S100000_S100000x1_0 bcast_S100000x1_S100000x7_0_1 reducesTo_S100000x7_S100000_d1 h_S_ Z

/-- The network's output from its seven inputs. -/
def out (x : FVec Ideal S100000x128 .f32) (ei : Arr S2x3200000 .i32) (ew : FVec Ideal S3200000 .f32) (W1 : FVec Ideal S128x16 .f32)
    (b1 : FVec Ideal S16 .f32) (W2 : FVec Ideal S16x7 .f32) (b2 : FVec Ideal S7 .f32) : FVec Ideal S100000x7 .f32 :=
  logSoftmax (addBias7 (aggregate7 (project2 (biasRelu (aggregate16 (project1 x W1) (src ei) (dst ei)
    (normOf (src ei) (dst ei) (weights ew))) b1) W2) (src ei) (dst ei) (normOf (src ei) (dst ei) (weights ew))) b2)

end Cert.Gcn

end
-- ==== Proof.Region0.lean ====
/-
  The first projection's grid. Ten grid points; point t stages rows 10000·t … 10000·t + 9999 of the node features
  and the whole 128 × 16 weight matrix, and writes back the product of the two as rows 10000·t … of the result. Entry
  (r, q) of a matrix product is Σ_c X(r, c) · W(c, q), which reads row r of X alone, so the blocks written back are
  the blocks of the product of the whole arrays, and they tile the result.
-/
import proofs.«135346_j21706764714346_1_alg».proof.Proof.Gen.KernelIdeal.Frame
import proofs.«135346_j21706764714346_1_alg».proof.Proof.LibBlockRows
import proofs.«135346_j21706764714346_1_alg».proof.Proof.LibPlainDot
import proofs.«135346_j21706764714346_1_alg».proof.Proof.Spec

set_option maxRecDepth 16384

noncomputable section

open scoped BigOperators

namespace Cert.KernelIdeal.Region0

open Cert.KernelIdeal Cert.KernelIdeal.Gen Cert.KernelIdeal.Facts₀ Cert.KernelIdeal.Facts
open Idealize.ShloMosaic Idealize.ShloMosaic.TcCoe Idealize.ShloMosaic.ValueIdx
open Idealize.ShloMosaic.Pipeline (Dat Cfg Window)

/-- The body's rectangles start at the origin. -/
theorem hz : (![0, 0] : Fin 2 → Nat) = fun _ => 0 := funext fun a => by fin_cases a <;> rfl

/-- One entry of a block's product is the same entry of the whole product, when the block's row p is row r of the
    whole left factor and the right factor is staged whole. -/
theorem block_eq (X : FVec Ideal S100000x128 .f32) (W : FVec Ideal S128x16 .f32) (x0 : Vec Ideal S10000x128 .f32) (x1 : Vec Ideal S128x16 .f32)
    (r : Fin 100000) (p : Fin 10000) (q : Fin 16)
    (h0 : ∀ k : Fin 128, x0 (ix2 p k) = X (ix2 r k)) (h1 : ∀ k : Fin 128, x1 (ix2 k q) = W (ix2 k q)) :
    k0_pay1 x0 x1 (ix2 p q) = Cert.Gcn.project1 X W (ix2 r q) := by
  unfold k0_pay1 Cert.Gcn.project1
  refine (Cert.BlockRows.narrowedMatmul_apply x0 x1 _ p q).trans ?_
  refine Eq.trans ?_ (hostDotGeneral_plain_apply none X W r q).symm
  exact Finset.sum_congr rfl fun k _ => by rw [h0 k, h1 k]

/-- The index maps over the ten grid points: the row-tiled windows are at block row t, column block 0; the small
    operand is staged whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What grid point t writes back is block t of the whole-array result. -/
theorem flushed_eq (c : Dev nD) (t : Fin cfg0.N) :
    (dat0 V c).flushed 2 t = ((cfg0.win 2).blk t).view.read (Elt Ideal) (Cert.Gcn.project1 (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  have ht : t.val < 10 := lt_of_lt_of_eq t.isLt N_0
  refine funext fun (j : S10000x16.Idx) => ?_
  obtain ⟨p, q, rfl⟩ : ∃ (p : Fin 10000) (q : Fin 16), j = ix2 p q := ⟨j 0, j 1, eq_ix2 j⟩
  have hemb : ((cfg0.win 2).blk t).view.emb (ix2 p q)
      = (ix2 (⟨t.val * 10000 + p.val, by have := p.isLt; omega⟩ : Fin 100000) q : S100000x16.Idx) := by
    funext a; apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  show k0_pay1 (iblk0 V c 0 t) (iblk0 V c 1 t) (ix2 p q) = (Cert.Gcn.project1 (V c main_arg0) (V c main_arg3)) (((cfg0.win 2).blk t).view.emb (ix2 p q))
  refine (block_eq (V c main_arg0) (V c main_arg3) (iblk0 V c 0 t) (iblk0 V c 1 t) _ p q (fun k => ?_) (fun k => ?_)).trans
    (congrArg (Cert.Gcn.project1 (V c main_arg0) (V c main_arg3)) hemb.symm)
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega

/-- An index of the result is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Row r of the result is in the block of grid point r / 10000: the blocks tile the result. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The result array after the grid: the whole-array stage of the arrays the grid found. -/
theorem final (c : Dev nD) :
    (dat0 V c).arrAt 2 cfg0.N = Cert.Gcn.project1 (V c main_arg0) (V c main_arg3) :=
  (dat0 V c).arrAt_eq_of_cover 2 _ (fun t _ => flushed_eq V c t) cover

end Cert.KernelIdeal.Region0

end
-- ==== Proof.Region1.lean ====
/-
  The bias-and-clamp grid. Ten grid points; point t stages rows 10000·t … of the aggregated rows and the bias as a
  one-row matrix, and writes back max(Z(r, q) + b(q), 0) for its rows. An entry reads Z at the same place and the
  bias at its column, so the blocks written back are the blocks of the whole array's clamp, and they tile the result.
-/
import proofs.«135346_j21706764714346_1_alg».proof.Proof.Gen.KernelIdeal.Frame
import proofs.«135346_j21706764714346_1_alg».proof.Proof.LibBlockRows
import proofs.«135346_j21706764714346_1_alg».proof.Proof.LibPlainDot
import proofs.«135346_j21706764714346_1_alg».proof.Proof.Spec

set_option maxRecDepth 16384

noncomputable section

open scoped BigOperators

namespace Cert.KernelIdeal.Region1

open Cert.KernelIdeal Cert.KernelIdeal.Gen Cert.KernelIdeal.Facts₀ Cert.KernelIdeal.Facts
open Idealize.ShloMosaic Idealize.ShloMosaic.TcCoe Idealize.ShloMosaic.ValueIdx
open Idealize.ShloMosaic.Pipeline (Dat Cfg Window)

/-- The body's rectangles start at the origin. -/
theorem hz : (![0, 0] : Fin 2 → Nat) = fun _ => 0 := funext fun a => by fin_cases a <;> rfl

/-- One entry of a block's clamp is the same entry of the whole array's, when the block's entry is the whole array's
    and the staged one-row matrix is the bias. -/
theorem block_eq (Z : FVec Ideal S100000x16 .f32) (b : FVec Ideal S16 .f32) (x0 : Vec Ideal S10000x16 .f32) (x1 : Vec Ideal S1x16 .f32)
    (r : Fin 100000) (p : Fin 10000) (q : Fin 16)
    (h0 : x0 (ix2 p q) = Z (ix2 r q)) (h1 : x1 (ix2 (0 : Fin 1) q) = b (ix1 q)) :
    k1_pay1 x0 x1 (ix2 p q) = Cert.Gcn.biasRelu Z b (ix2 r q) := by
  unfold k1_pay1 Cert.Gcn.biasRelu
  refine (Cert.BlockRows.biasReluBlock_apply x0 x1 _ _ _ p q).trans ?_
  refine Eq.trans ?_ (Cert.RowWise.hostBiasRelu_apply Z b _ _ _ r q).symm
  rw [h0, h1]

/-- The index maps over the ten grid points: the row-tiled windows are at block row t, column block 0; the small
    operand is staged whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the result is some grid point's. -/
theorem idx_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What grid point t writes back is block t of the whole-array result. -/
theorem flushed_eq (c : Dev nD) (b : FVec Ideal S16 .f32)
    (hb : ∀ q : Fin 16, V c main_v46 (ix2 (0 : Fin 1) q) = b (ix1 q)) (t : Fin cfg1.N) :
    (dat1 V c).flushed 2 t = ((cfg1.win 2).blk t).view.read (Elt Ideal) (Cert.Gcn.biasRelu (V c main_v45) b) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨e0, e1, e2, e3, e4, e5⟩ := idx_facts t
  have ht : t.val < 10 := lt_of_lt_of_eq t.isLt N_1
  refine funext fun (j : S10000x16.Idx) => ?_
  obtain ⟨p, q, rfl⟩ : ∃ (p : Fin 10000) (q : Fin 16), j = ix2 p q := ⟨j 0, j 1, eq_ix2 j⟩
  have hemb : ((cfg1.win 2).blk t).view.emb (ix2 p q)
      = (ix2 (⟨t.val * 10000 + p.val, by have := p.isLt; omega⟩ : Fin 100000) q : S100000x16.Idx) := by
    funext a; apply Fin.ext
    match a with
    | ⟨0, _⟩ => show win1_2.index t (0 : Fin 2) * 10000 + 1 * p.val = t.val * 10000 + p.val; omega
    | ⟨1, _⟩ => show win1_2.index t (1 : Fin 2) * 16 + 1 * q.val = q.val; omega
  show k1_pay1 (iblk1 V c 0 t) (iblk1 V c 1 t) (ix2 p q) = (Cert.Gcn.biasRelu (V c main_v45) b) (((cfg1.win 2).blk t).view.emb (ix2 p q))
  refine (block_eq (V c main_v45) b (iblk1 V c 0 t) (iblk1 V c 1 t) _ p q ?_ ?_).trans
    (congrArg (Cert.Gcn.biasRelu (V c main_v45) b) hemb.symm)
  · show V c main_v45 (((cfg1.win 0).blk t).view.emb (ix2 p q)) = _
    refine congrArg (V c main_v45) (funext fun a => Fin.ext ?_)
    match a with
    | ⟨0, _⟩ => show win1_0.index t (0 : Fin 2) * 10000 + 1 * p.val = t.val * 10000 + p.val; omega
    | ⟨1, _⟩ => show win1_0.index t (1 : Fin 2) * 16 + 1 * q.val = q.val; omega
  · refine Eq.trans ?_ (hb q)
    show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega

/-- An index of the result is in point t's block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- Row r of the result is in the block of grid point r / 10000: the blocks tile the result. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The result array after the grid: the whole-array stage of the arrays the grid found. -/
theorem final (c : Dev nD) (b : FVec Ideal S16 .f32)
    (hb : ∀ q : Fin 16, V c main_v46 (ix2 (0 : Fin 1) q) = b (ix1 q)) :
    (dat1 V c).arrAt 2 cfg1.N = Cert.Gcn.biasRelu (V c main_v45) b :=
  (dat1 V c).arrAt_eq_of_cover 2 _ (fun t _ => flushed_eq V c b hb t) cover

end Cert.KernelIdeal.Region1

end
-- ==== Proof.Region2.lean ====
/-
  The second projection's grid. Ten grid points; point t stages rows 10000·t … of the hidden rows and the whole
  16 × 7 weight matrix, and writes back their product as rows 10000·t … of the result. Entry (r, q) of a matrix
  product reads row r of the left factor alone, so the blocks written back are the blocks of the product of the whole
  arrays, and they tile the result.
-/
import proofs.«135346_j21706764714346_1_alg».proof.Proof.Gen.KernelIdeal.Frame
import proofs.«135346_j21706764714346_1_alg».proof.Proof.LibBlockRows
import proofs.«135346_j21706764714346_1_alg».proof.Proof.LibPlainDot
import proofs.«135346_j21706764714346_1_alg».proof.Proof.Spec

set_option maxRecDepth 16384

noncomputable section

open scoped BigOperators

namespace Cert.KernelIdeal.Region2

open Cert.KernelIdeal Cert.KernelIdeal.Gen Cert.KernelIdeal.Facts₀ Cert.KernelIdeal.Facts
open Idealize.ShloMosaic Idealize.ShloMosaic.TcCoe Idealize.ShloMosaic.ValueIdx
open Idealize.ShloMosaic.Pipeline (Dat Cfg Window)

/-- The body's rectangles start at the origin. -/
theorem hz : (![0, 0] : Fin 2 → Nat) = fun _ => 0 := funext fun a => by fin_cases a <;> rfl

/-- One entry of a block's product is the same entry of the whole product, when the block's row p is row r of the
    whole left factor and the right factor is staged whole. -/
theorem block_eq (X : FVec Ideal S100000x16 .f32) (W : FVec Ideal S16x7 .f32) (x0 : Vec Ideal S10000x16 .f32) (x1 : Vec Ideal S16x7 .f32)
    (r : Fin 100000) (p : Fin 10000) (q : Fin 7)
    (h0 : ∀ k : Fin 16, x0 (ix2 p k) = X (ix2 r k)) (h1 : ∀ k : Fin 16, x1 (ix2 k q) = W (ix2 k q)) :
    k2_pay1 x0 x1 (ix2 p q) = Cert.Gcn.project2 X W (ix2 r q) := by
  unfold k2_pay1 Cert.Gcn.project2
  rw [shapeCast_self]
  refine (Cert.BlockRows.narrowedMatmul_apply x0 x1 _ p q).trans ?_
  refine Eq.trans ?_ (hostDotGeneral_plain_apply none X W r q).symm
  exact Finset.sum_congr rfl fun k _ => by rw [h0 k, h1 k]

/-- The index maps over the ten grid points: the row-tiled windows are at block row t, column block 0; the small
    operand is staged whole at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the result is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What grid point t writes back is block t of the whole-array result. -/
theorem flushed_eq (c : Dev nD) (t : Fin cfg2.N) :
    (dat2 V c).flushed 2 t = ((cfg2.win 2).blk t).view.read (Elt Ideal) (Cert.Gcn.project2 (V c main_v47) (V c main_arg5)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x7) hz]
  obtain ⟨e0, e1, e2, e3, e4, e5⟩ := idx_facts t
  have ht : t.val < 10 := lt_of_lt_of_eq t.isLt N_2
  refine funext fun (j : S10000x7.Idx) => ?_
  obtain ⟨p, q, rfl⟩ : ∃ (p : Fin 10000) (q : Fin 7), j = ix2 p q := ⟨j 0, j 1, eq_ix2 j⟩
  have hemb : ((cfg2.win 2).blk t).view.emb (ix2 p q)
      = (ix2 (⟨t.val * 10000 + p.val, by have := p.isLt; omega⟩ : Fin 100000) q : S100000x7.Idx) := by
    funext a; apply Fin.ext
    match a with
    | ⟨0, _⟩ => show win2_2.index t (0 : Fin 2) * 10000 + 1 * p.val = t.val * 10000 + p.val; omega
    | ⟨1, _⟩ => show win2_2.index t (1 : Fin 2) * 7 + 1 * q.val = q.val; omega
  show k2_pay1 (iblk2 V c 0 t) (iblk2 V c 1 t) (ix2 p q) = (Cert.Gcn.project2 (V c main_v47) (V c main_arg5)) (((cfg2.win 2).blk t).view.emb (ix2 p q))
  refine (block_eq (V c main_v47) (V c main_arg5) (iblk2 V c 0 t) (iblk2 V c 1 t) _ p q (fun k => ?_) (fun k => ?_)).trans
    (congrArg (Cert.Gcn.project2 (V c main_v47) (V c main_arg5)) hemb.symm)
  · show V c main_v47 (((cfg2.win 0).blk t).view.emb (ix2 p k)) = _
    refine congrArg (V c main_v47) (funext fun a => Fin.ext ?_)
    match a with
    | ⟨0, _⟩ => show win2_0.index t (0 : Fin 2) * 10000 + 1 * p.val = t.val * 10000 + p.val; omega
    | ⟨1, _⟩ => show win2_0.index t (1 : Fin 2) * 16 + 1 * k.val = k.val; omega
  · show V c main_arg5 (((cfg2.win 1).blk t).view.emb (ix2 k q)) = _
    refine congrArg (V c main_arg5) (funext fun a => Fin.ext ?_)
    match a with
    | ⟨0, _⟩ => show win2_1.index t (0 : Fin 2) * 16 + 1 * k.val = k.val; omega
    | ⟨1, _⟩ => show win2_1.index t (1 : Fin 2) * 7 + 1 * q.val = q.val; omega

/-- An index of the result is in point t's block iff each coordinate is in the block's range on its axis. -/
theorem mem_blk (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v48).slice (win2_2.rect t)).set ↔ _
  rw [View.set_slice_whole, Rect.mem_set_unit]
  exact Iff.rfl

/-- Row r of the result is in the block of grid point r / 10000: the blocks tile the result. -/
theorem cover (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 7 ≤ (i 1).val ∧ (i 1).val < win2_2.index t (1 : Fin 2) * 7 + 7; omega

/-- The result array after the grid: the whole-array stage of the arrays the grid found. -/
theorem final (c : Dev nD) :
    (dat2 V c).arrAt 2 cfg2.N = Cert.Gcn.project2 (V c main_v47) (V c main_arg5) :=
  (dat2 V c).arrAt_eq_of_cover 2 _ (fun t _ => flushed_eq V c t) cover

end Cert.KernelIdeal.Region2

end
-- ==== Proof.Region3.lean ====
/-
  The bias-and-log-softmax grid. Ten grid points; point t stages rows 10000·t … of the aggregated rows and the
  bias as a one-row matrix, and writes back, for each of its rows, the log-softmax of the row plus the bias. A row's
  log-softmax reads that row alone, so the blocks written back are the blocks of the whole array's row-wise
  log-softmax, and they tile the result.
-/
import proofs.«135346_j21706764714346_1_alg».proof.Proof.Gen.KernelIdeal.Frame
import proofs.«135346_j21706764714346_1_alg».proof.Proof.LibBlockRows
import proofs.«135346_j21706764714346_1_alg».proof.Proof.LibPlainDot
import proofs.«135346_j21706764714346_1_alg».proof.Proof.Spec

set_option maxRecDepth 16384

noncomputable section

open scoped BigOperators

namespace Cert.KernelIdeal.Region3

open Cert.KernelIdeal Cert.KernelIdeal.Gen Cert.KernelIdeal.Facts₀ Cert.KernelIdeal.Facts
open Idealize.ShloMosaic Idealize.ShloMosaic.TcCoe Idealize.ShloMosaic.ValueIdx
open Idealize.ShloMosaic.Pipeline (Dat Cfg Window)

/-- The body's rectangles start at the origin. -/
theorem hz : (![0, 0] : Fin 2 → Nat) = fun _ => 0 := funext fun a => by fin_cases a <;> rfl

/-- One entry of a block's log-softmax is the same entry of the whole array's, when the block's row p is row r of the
    whole array and the staged one-row matrix is the bias. -/
theorem block_eq (Z : FVec Ideal S100000x7 .f32) (b : FVec Ideal S7 .f32) (x0 : Vec Ideal S10000x7 .f32) (x1 : Vec Ideal S1x7 .f32)
    (r : Fin 100000) (p : Fin 10000) (q : Fin 7)
    (h0 : ∀ k : Fin 7, x0 (ix2 p k) = Z (ix2 r k)) (h1 : ∀ k : Fin 7, x1 (ix2 (0 : Fin 1) k) = b (ix1 k)) :
    k3_pay1 x0 x1 (ix2 p q) = Cert.Gcn.logSoftmax (Cert.Gcn.addBias7 Z b) (ix2 r q) := by
  unfold k3_pay1 Cert.Gcn.logSoftmax
  refine (Cert.BlockRows.vecLogSoftmax_apply
    (addf (shapeCast S10000x7 x0 Facts₀.shapeCasts_S10000x7_S10000x7) (broadcastTo S10000x7 (shapeCast S1x7 x1 Facts₀.shapeCasts_S1x7_S1x7) Facts₀.broadcasts_S1x7_S10000x7))
    _ _ _ _ _ _ p q).trans ?_
  refine Eq.trans ?_ (Cert.RowWise.hostLogSoftmax_apply _ _ _ _ (by decide) _ (Cert.Gcn.addBias7 Z b) r q).symm
  refine congrArg (fun y => Cert.RowWise.logSoftmaxRow y q) (funext fun k => ?_)
  rw [Cert.BlockRows.biasBlock_apply, h0 k, h1 k]
  unfold Cert.Gcn.addBias7
  show _ = Z (ix2 r k) + _
  rw [Cert.RowWise.biasRow_apply]

/-- The index maps over the ten grid points: the row-tiled windows are at block row t, column block 0; the small
    operand is staged whole at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row of the result is some grid point's. -/
theorem idx_onto : ∀ q0 : Fin 10, ∃ t : Fin cfg3.N, win3_2.index t = ![q0.val, 0] :=
  (by decide +kernel : ∀ q0 : Fin 10, ∃ t : Fin grid3.N, win3_2.index t = ![q0.val, 0])

variable (V : (c : Dev nD) → (b : Ref sig .tc) → Buf (Elt Ideal) ((c : Thread nD τ).loc b))

/-- What grid point t writes back is block t of the whole-array result. -/
theorem flushed_eq (c : Dev nD) (b : FVec Ideal S7 .f32)
    (hb : ∀ q : Fin 7, V c main_v62 (ix2 (0 : Fin 1) q) = b (ix1 q)) (t : Fin cfg3.N) :
    (dat3 V c).flushed 2 t = ((cfg3.win 2).blk t).view.read (Elt Ideal) (Cert.Gcn.logSoftmax (Cert.Gcn.addBias7 (V c main_v61) b)) := by
  show (cfg3.win 2).cut (grid3.coords t) ((dat3 V c).after 2 t) = _
  rw [after3_2]
  unfold out3_2
  rw [View.canon_unit_zero hz]
  simp only [View.ld_unit_zero (S := S10000x7) hz, View.ld_unit_zero (S := S1x7) hz]
  obtain ⟨e0, e1, e2, e3, e4, e5⟩ := idx_facts t
  have ht : t.val < 10 := lt_of_lt_of_eq t.isLt N_3
  refine funext fun (j : S10000x7.Idx) => ?_
  obtain ⟨p, q, rfl⟩ : ∃ (p : Fin 10000) (q : Fin 7), j = ix2 p q := ⟨j 0, j 1, eq_ix2 j⟩
  have hemb : ((cfg3.win 2).blk t).view.emb (ix2 p q)
      = (ix2 (⟨t.val * 10000 + p.val, by have := p.isLt; omega⟩ : Fin 100000) q : S100000x7.Idx) := by
    funext a; apply Fin.ext
    match a with
    | ⟨0, _⟩ => show win3_2.index t (0 : Fin 2) * 10000 + 1 * p.val = t.val * 10000 + p.val; omega
    | ⟨1, _⟩ => show win3_2.index t (1 : Fin 2) * 7 + 1 * q.val = q.val; omega
  show k3_pay1 (iblk3 V c 0 t) (iblk3 V c 1 t) (ix2 p q) = (Cert.Gcn.logSoftmax (Cert.Gcn.addBias7 (V c main_v61) b)) (((cfg3.win 2).blk t).view.emb (ix2 p q))
  refine (block_eq (V c main_v61) b (iblk3 V c 0 t) (iblk3 V c 1 t) _ p q (fun k => ?_) (fun k => ?_)).trans
    (congrArg (Cert.Gcn.logSoftmax (Cert.Gcn.addBias7 (V c main_v61) b)) hemb.symm)
  · show V c main_v61 (((cfg3.win 0).blk t).view.emb (ix2 p k)) = _
    refine congrArg (V c main_v61) (funext fun a => Fin.ext ?_)
    match a with
    | ⟨0, _⟩ => show win3_0.index t (0 : Fin 2) * 10000 + 1 * p.val = t.val * 10000 + p.val; omega
    | ⟨1, _⟩ => show win3_0.index t (1 : Fin 2) * 7 + 1 * k.val = k.val; omega
  · refine Eq.trans ?_ (hb k)
    show V c main_v62 (((cfg3.win 1).blk t).view.emb (ix2 (0 : Fin 1) k)) = _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 7 + 1 * k.val = k.val; omega

/-- An index of the result is in point t's block iff each coordinate is in the block's range on its axis. -/
theorem mem_blk (t : Fin cfg3.N) (i : S100000x7.Idx) :
    i ∈ ((cfg3.win 2).blk t).view.set ↔ ∀ a : Fin 2, win3_2.index t a * S10000x7.size a ≤ (i a).val ∧ (i a).val < win3_2.index t a * S10000x7.size a + S10000x7.size a := by
  show i ∈ ((View.whole main_v63).slice (win3_2.rect t)).set ↔ _
  rw [View.set_slice_whole, Rect.mem_set_unit]
  exact Iff.rfl

/-- Row r of the result is in the block of grid point r / 10000: the blocks tile the result. -/
theorem cover (i : S100000x7.Idx) : ∃ t : Fin cfg3.N, (cfg3.win 2).flush t = true ∧ i ∈ ((cfg3.win 2).blk t).view.set := by
  have hi0 : (i 0).val < 100000 := (i 0).isLt
  have hi1 : (i 1).val < 7 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 7 ≤ (i 1).val ∧ (i 1).val < win3_2.index t (1 : Fin 2) * 7 + 7; omega

/-- The result array after the grid: the whole-array stage of the arrays the grid found. -/
theorem final (c : Dev nD) (b : FVec Ideal S7 .f32)
    (hb : ∀ q : Fin 7, V c main_v62 (ix2 (0 : Fin 1) q) = b (ix1 q)) :
    (dat3 V c).arrAt 2 cfg3.N = Cert.Gcn.logSoftmax (Cert.Gcn.addBias7 (V c main_v61) b) :=
  (dat3 V c).arrAt_eq_of_cover 2 _ (fun t _ => flushed_eq V c b hb t) cover

end Cert.KernelIdeal.Region3

end
-- ==== Proof.KernelValue.lean ====
/-
  The kernel program's result as a function of its arguments. Boundary by boundary through its nine segments, each
  buffer a later segment reads is a stage of the two-layer graph convolution of the arguments: after the first host
  operations the two end-point lists and the normalised edge weights; after the first grid the projection x·W1; after
  the next host operations the aggregated rows and the bias as a one-row matrix; after the second grid the clamped
  hidden rows; after the third their projection by W2; after the last host operations the second aggregation; and
  after the last grid the row-wise log-softmax of that plus the bias. A grid leaves every buffer other than its result
  as it found it, and a host operation writes its own result buffer only, so the end-point lists, the normalised
  weights and the late-read arguments are the same at every boundary.
-/
import proofs.«135346_j21706764714346_1_alg».proof.Proof.Gen.KernelIdeal.Frame
import proofs.«135346_j21706764714346_1_alg».proof.Proof.Region0
import proofs.«135346_j21706764714346_1_alg».proof.Proof.Region1
import proofs.«135346_j21706764714346_1_alg».proof.Proof.Region2
import proofs.«135346_j21706764714346_1_alg».proof.Proof.Region3
import proofs.«135346_j21706764714346_1_alg».proof.Proof.Spec
import Idealize.ShloMosaic.Lib.StableHlo.Run
import Idealize.ShloMosaic.Lib.ValueLayout

set_option maxRecDepth 65536
set_option maxHeartbeats 4000000

noncomputable section

namespace Cert.KernelIdeal.KernelValue

open Cert.KernelIdeal Cert.KernelIdeal.Gen Cert.KernelIdeal.Facts₀ Cert.KernelIdeal.Facts
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg) (c : Dev nD)

/-! ## After the first host operations (the first grid's entry) -/

theorem w3_v5 : W3 m ρ c (Proc.devRef .tc main_v5) = (Cert.Gcn.src (m ((c : Thread nD τ).loc main_arg1))) := by
  show StableHlo.after hostOps0_2 (StableHlo.after hostOps0_1 (StableHlo.after hostOps0 (W0 m ρ c))) (Proc.devRef .tc main_v5) = _
  unfold Cert.Gcn.src
  after_results_simp <;> rfl

theorem w3_v6 : W3 m ρ c (Proc.devRef .tc main_v6) = (Cert.Gcn.dst (m ((c : Thread nD τ).loc main_arg1))) := by
  show StableHlo.after hostOps0_2 (StableHlo.after hostOps0_1 (StableHlo.after hostOps0 (W0 m ρ c))) (Proc.devRef .tc main_v6) = _
  unfold Cert.Gcn.dst
  after_results_simp <;> rfl

/-- The choice between the inverse square root and the zero constant, from what the three operations read. -/
theorem choose_stage (X : Valuation τ sig (Elt Ideal)) : StableHlo.after hostOps0_1 X (Proc.devRef .tc main_v15)
    = select (X (Proc.devRef .tc main_v13)) (X (Proc.devRef .tc main_v14)) (broadcastInDim S100000 ![] Facts₀.bcast_S_S100000 (id (X (Proc.devRef .tc main_cst_2)))) := by
  after_results_simp <;> rfl

/-- The normalised weights from the per-node factor, the end points and the weights. -/
theorem norm_stage (X : Valuation τ sig (Elt Ideal)) : StableHlo.after hostOps0_2 X (Proc.devRef .tc main_v31)
    = mulf (mulf (Cert.Gcn.atNodes (X (Proc.devRef .tc main_v15)) (X (Proc.devRef .tc main_v5))) (X (Proc.devRef .tc main_v8))) (Cert.Gcn.atNodes (X (Proc.devRef .tc main_v15)) (X (Proc.devRef .tc main_v6))) := by
  unfold Cert.Gcn.atNodes Cert.Gcn.wrap
  after_results_simp <;> rfl

theorem w1_v13 : W1 m ρ c (Proc.devRef .tc main_v13) = cmpf .ogt (Cert.Gcn.degree (Cert.Gcn.dst (m ((c : Thread nD τ).loc main_arg1))) (Cert.Gcn.weights (m ((c : Thread nD τ).loc main_arg2)))) (broadcastInDim S100000 ![] Facts₀.bcast_S_S100000 (constant (F := Ideal) S_ .f32 0x00000000#32)) := by
  show StableHlo.after hostOps0 (W0 m ρ c) (Proc.devRef .tc main_v13) = _
  unfold Cert.Gcn.degree Cert.Gcn.dst Cert.Gcn.weights
  after_results_simp <;> rfl

theorem w1_v14 : W1 m ρ c (Proc.devRef .tc main_v14) = Host.rsqrt (F := Ideal) (Cert.Gcn.degree (Cert.Gcn.dst (m ((c : Thread nD τ).loc main_arg1))) (Cert.Gcn.weights (m ((c : Thread nD τ).loc main_arg2)))) := by
  show StableHlo.after hostOps0 (W0 m ρ c) (Proc.devRef .tc main_v14) = _
  unfold Cert.Gcn.degree Cert.Gcn.dst Cert.Gcn.weights
  after_results_simp <;> rfl

theorem w1_cst2 : W1 m ρ c (Proc.devRef .tc main_cst_2) = constant (F := Ideal) S_ .f32 0x00000000#32 := by
  show StableHlo.after hostOps0 (W0 m ρ c) (Proc.devRef .tc main_cst_2) = _
  after_results_simp <;> rfl

theorem w2_v15 : W2 m ρ c (Proc.devRef .tc main_v15) = Cert.Gcn.invSqrt (Cert.Gcn.degree (Cert.Gcn.dst (m ((c : Thread nD τ).loc main_arg1))) (Cert.Gcn.weights (m ((c : Thread nD τ).loc main_arg2)))) := by
  refine (choose_stage (W1 m ρ c)).trans ?_
  rw [w1_v13, w1_v14, w1_cst2]
  rfl

theorem w2_v5 : W2 m ρ c (Proc.devRef .tc main_v5) = (Cert.Gcn.src (m ((c : Thread nD τ).loc main_arg1))) := by
  show StableHlo.after hostOps0_1 (StableHlo.after hostOps0 (W0 m ρ c)) (Proc.devRef .tc main_v5) = _
  unfold Cert.Gcn.src
  after_results_simp <;> rfl

theorem w2_v6 : W2 m ρ c (Proc.devRef .tc main_v6) = (Cert.Gcn.dst (m ((c : Thread nD τ).loc main_arg1))) := by
  show StableHlo.after hostOps0_1 (StableHlo.after hostOps0 (W0 m ρ c)) (Proc.devRef .tc main_v6) = _
  unfold Cert.Gcn.dst
  after_results_simp <;> rfl

theorem w2_v8 : W2 m ρ c (Proc.devRef .tc main_v8) = (Cert.Gcn.weights (m ((c : Thread nD τ).loc main_arg2))) := by
  show StableHlo.after hostOps0_1 (StableHlo.after hostOps0 (W0 m ρ c)) (Proc.devRef .tc main_v8) = _
  unfold Cert.Gcn.weights
  after_results_simp <;> rfl

theorem w3_v31 : W3 m ρ c (Proc.devRef .tc main_v31) = (Cert.Gcn.normOf (Cert.Gcn.src (m ((c : Thread nD τ).loc main_arg1))) (Cert.Gcn.dst (m ((c : Thread nD τ).loc main_arg1))) (Cert.Gcn.weights (m ((c : Thread nD τ).loc main_arg2)))) := by
  refine (norm_stage (W2 m ρ c)).trans ?_
  rw [w2_v15, w2_v5, w2_v6, w2_v8]
  rfl

theorem w3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

theorem w3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

theorem w3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

theorem w3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

theorem w3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

/-! ## After the first grid -/

theorem w4_v32 : W4 m ρ c (Proc.devRef .tc main_v32) = Cert.Gcn.project1 (m ((c : Thread nD τ).loc main_arg0)) (m ((c : Thread nD τ).loc main_arg3)) :=
  (W4_arr m ρ c 2).trans ((Cert.KernelIdeal.Region0.final (V3 m ρ) c).trans
    (congrArg₂ Cert.Gcn.project1 (w3_arg0 m ρ c) (w3_arg3 m ρ c)))

theorem w4_v5 : W4 m ρ c (Proc.devRef .tc main_v5) = (Cert.Gcn.src (m ((c : Thread nD τ).loc main_arg1))) :=
  (W4_of_ne m ρ c main_v5 (by decide)).trans (w3_v5 m ρ c)

theorem w4_v6 : W4 m ρ c (Proc.devRef .tc main_v6) = (Cert.Gcn.dst (m ((c : Thread nD τ).loc main_arg1))) :=
  (W4_of_ne m ρ c main_v6 (by decide)).trans (w3_v6 m ρ c)

theorem w4_v31 : W4 m ρ c (Proc.devRef .tc main_v31) = (Cert.Gcn.normOf (Cert.Gcn.src (m ((c : Thread nD τ).loc main_arg1))) (Cert.Gcn.dst (m ((c : Thread nD τ).loc main_arg1))) (Cert.Gcn.weights (m ((c : Thread nD τ).loc main_arg2)))) :=
  (W4_of_ne m ρ c main_v31 (by decide)).trans (w3_v31 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg6 : W4 m ρ c (Proc.devRef .tc main_arg6) = (m ((c : Thread nD τ).loc main_arg6)) :=
  (W4_of_ne m ρ c main_arg6 (by decide)).trans (w3_arg6 m ρ c)

/-! ## After the second host operations (the bias-and-clamp grid's entry) -/

theorem w5_v45 : W5 m ρ c (Proc.devRef .tc main_v45)
    = Cert.Gcn.aggregate16 (W4 m ρ c (Proc.devRef .tc main_v32)) (W4 m ρ c (Proc.devRef .tc main_v5)) (W4 m ρ c (Proc.devRef .tc main_v6)) (W4 m ρ c (Proc.devRef .tc main_v31)) := by
  show StableHlo.after hostOps1 (W4 m ρ c) (Proc.devRef .tc main_v45) = _
  unfold Cert.Gcn.aggregate16 Cert.Gcn.wrap
  after_results_simp <;> rfl

theorem w5_v46 : (W5 m ρ c (Proc.devRef .tc main_v46) : S1x16.Idx → EReal) = shapeCast S1x16 (W4 m ρ c (Proc.devRef .tc main_arg4)) Facts₀.shapeCasts_S16_S1x16 := by
  show StableHlo.after hostOps1 (W4 m ρ c) (Proc.devRef .tc main_v46) = _
  after_results_simp <;> rfl

theorem w5_bias (q : Fin 16) : V5 m ρ c main_v46 (ix2 (0 : Fin 1) q) = (m ((c : Thread nD τ).loc main_arg4)) (ix1 q) := by
  show (W5 m ρ c (Proc.devRef .tc main_v46) : S1x16.Idx → EReal) (ix2 (0 : Fin 1) q) = _
  rw [w5_v46, shapeCast_a_1a_apply, w4_arg4]

theorem w5_v5 : W5 m ρ c (Proc.devRef .tc main_v5) = (Cert.Gcn.src (m ((c : Thread nD τ).loc main_arg1))) := by
  refine Eq.trans ?_ (w4_v5 m ρ c)
  show StableHlo.after hostOps1 (W4 m ρ c) (Proc.devRef .tc main_v5) = _
  after_results_simp <;> rfl

theorem w5_v6 : W5 m ρ c (Proc.devRef .tc main_v6) = (Cert.Gcn.dst (m ((c : Thread nD τ).loc main_arg1))) := by
  refine Eq.trans ?_ (w4_v6 m ρ c)
  show StableHlo.after hostOps1 (W4 m ρ c) (Proc.devRef .tc main_v6) = _
  after_results_simp <;> rfl

theorem w5_v31 : W5 m ρ c (Proc.devRef .tc main_v31) = (Cert.Gcn.normOf (Cert.Gcn.src (m ((c : Thread nD τ).loc main_arg1))) (Cert.Gcn.dst (m ((c : Thread nD τ).loc main_arg1))) (Cert.Gcn.weights (m ((c : Thread nD τ).loc main_arg2)))) := by
  refine Eq.trans ?_ (w4_v31 m ρ c)
  show StableHlo.after hostOps1 (W4 m ρ c) (Proc.devRef .tc main_v31) = _
  after_results_simp <;> rfl

theorem w5_arg5 : W5 m ρ c (Proc.devRef .tc main_arg5) = (m ((c : Thread nD τ).loc main_arg5)) := by
  refine Eq.trans ?_ (w4_arg5 m ρ c)
  show StableHlo.after hostOps1 (W4 m ρ c) (Proc.devRef .tc main_arg5) = _
  after_results_simp <;> rfl

theorem w5_arg6 : W5 m ρ c (Proc.devRef .tc main_arg6) = (m ((c : Thread nD τ).loc main_arg6)) := by
  refine Eq.trans ?_ (w4_arg6 m ρ c)
  show StableHlo.after hostOps1 (W4 m ρ c) (Proc.devRef .tc main_arg6) = _
  after_results_simp <;> rfl

/-! ## After the bias-and-clamp grid and the second projection's grid -/

theorem w6_v47 : W6 m ρ c (Proc.devRef .tc main_v47) = (Cert.Gcn.biasRelu (Cert.Gcn.aggregate16 (Cert.Gcn.project1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.normOf (Cert.Gcn.src (m ((c : Thread nD τ).loc main_arg1))) (Cert.Gcn.dst (m ((c : Thread nD τ).loc main_arg1))) (Cert.Gcn.weights (m ((c : Thread nD τ).loc main_arg2))))) (m ((c : Thread nD τ).loc main_arg4))) := by
  refine (W6_arr m ρ c 2).trans ((Cert.KernelIdeal.Region1.final (V5 m ρ) c (m ((c : Thread nD τ).loc main_arg4)) (w5_bias m ρ c)).trans ?_)
  refine congrArg (fun Z => Cert.Gcn.biasRelu Z (m ((c : Thread nD τ).loc main_arg4))) ?_
  refine (w5_v45 m ρ c).trans ?_
  rw [w4_v32, w4_v5, w4_v6, w4_v31]

theorem w6_v5 : W6 m ρ c (Proc.devRef .tc main_v5) = (Cert.Gcn.src (m ((c : Thread nD τ).loc main_arg1))) :=
  (W6_of_ne m ρ c main_v5 (by decide)).trans (w5_v5 m ρ c)

theorem w6_v6 : W6 m ρ c (Proc.devRef .tc main_v6) = (Cert.Gcn.dst (m ((c : Thread nD τ).loc main_arg1))) :=
  (W6_of_ne m ρ c main_v6 (by decide)).trans (w5_v6 m ρ c)

theorem w6_v31 : W6 m ρ c (Proc.devRef .tc main_v31) = (Cert.Gcn.normOf (Cert.Gcn.src (m ((c : Thread nD τ).loc main_arg1))) (Cert.Gcn.dst (m ((c : Thread nD τ).loc main_arg1))) (Cert.Gcn.weights (m ((c : Thread nD τ).loc main_arg2)))) :=
  (W6_of_ne m ρ c main_v31 (by decide)).trans (w5_v31 m ρ c)

theorem w6_arg5 : W6 m ρ c (Proc.devRef .tc main_arg5) = (m ((c : Thread nD τ).loc main_arg5)) :=
  (W6_of_ne m ρ c main_arg5 (by decide)).trans (w5_arg5 m ρ c)

theorem w6_arg6 : W6 m ρ c (Proc.devRef .tc main_arg6) = (m ((c : Thread nD τ).loc main_arg6)) :=
  (W6_of_ne m ρ c main_arg6 (by decide)).trans (w5_arg6 m ρ c)

theorem w7_v48 : W7 m ρ c (Proc.devRef .tc main_v48) = Cert.Gcn.project2 (Cert.Gcn.biasRelu (Cert.Gcn.aggregate16 (Cert.Gcn.project1 (m ((c : Thread nD τ).loc main_arg0)) (m ((c : Thread nD τ).loc main_arg3))) (Cert.Gcn.src (m ((c : Thread nD τ).loc main_arg1))) (Cert.Gcn.dst (m ((c : Thread nD τ).loc main_arg1))) (Cert.Gcn.normOf (Cert.Gcn.src (m ((c : Thread nD τ).loc main_arg1))) (Cert.Gcn.dst (m ((c : Thread nD τ).loc main_arg1))) (Cert.Gcn.weights (m ((c : Thread nD τ).loc main_arg2))))) (m ((c : Thread nD τ).loc main_arg4))) (m ((c : Thread nD τ).loc main_arg5)) :=
  (W7_arr m ρ c 2).trans ((Cert.KernelIdeal.Region2.final (V6 m ρ) c).trans
    (congrArg₂ Cert.Gcn.project2 (w6_v47 m ρ c) (w6_arg5 m ρ c)))

theorem w7_v5 : W7 m ρ c (Proc.devRef .tc main_v5) = (Cert.Gcn.src (m ((c : Thread nD τ).loc main_arg1))) :=
  (W7_of_ne m ρ c main_v5 (by decide)).trans (w6_v5 m ρ c)

theorem w7_v6 : W7 m ρ c (Proc.devRef .tc main_v6) = (Cert.Gcn.dst (m ((c : Thread nD τ).loc main_arg1))) :=
  (W7_of_ne m ρ c main_v6 (by decide)).trans (w6_v6 m ρ c)

theorem w7_v31 : W7 m ρ c (Proc.devRef .tc main_v31) = (Cert.Gcn.normOf (Cert.Gcn.src (m ((c : Thread nD τ).loc main_arg1))) (Cert.Gcn.dst (m ((c : Thread nD τ).loc main_arg1))) (Cert.Gcn.weights (m ((c : Thread nD τ).loc main_arg2)))) :=
  (W7_of_ne m ρ c main_v31 (by decide)).trans (w6_v31 m ρ c)

theorem w7_arg6 : W7 m ρ c (Proc.devRef .tc main_arg6) = (m ((c : Thread nD τ).loc main_arg6)) :=
  (W7_of_ne m ρ c main_arg6 (by decide)).trans (w6_arg6 m ρ c)

/-! ## After the last host operations (the bias-and-log-softmax grid's entry) -/

theorem w8_v61 : W8 m ρ c (Proc.devRef .tc main_v61)
    = Cert.Gcn.aggregate7 (W7 m ρ c (Proc.devRef .tc main_v48)) (W7 m ρ c (Proc.devRef .tc main_v5)) (W7 m ρ c (Proc.devRef .tc main_v6)) (W7 m ρ c (Proc.devRef .tc main_v31)) := by
  show StableHlo.after hostOps3 (W7 m ρ c) (Proc.devRef .tc main_v61) = _
  unfold Cert.Gcn.aggregate7 Cert.Gcn.wrap
  after_results_simp <;> rfl

theorem w8_v62 : (W8 m ρ c (Proc.devRef .tc main_v62) : S1x7.Idx → EReal) = shapeCast S1x7 (W7 m ρ c (Proc.devRef .tc main_arg6)) Facts₀.shapeCasts_S7_S1x7 := by
  show StableHlo.after hostOps3 (W7 m ρ c) (Proc.devRef .tc main_v62) = _
  after_results_simp <;> rfl

theorem w8_bias (q : Fin 7) : V8 m ρ c main_v62 (ix2 (0 : Fin 1) q) = (m ((c : Thread nD τ).loc main_arg6)) (ix1 q) := by
  show (W8 m ρ c (Proc.devRef .tc main_v62) : S1x7.Idx → EReal) (ix2 (0 : Fin 1) q) = _
  rw [w8_v62, shapeCast_a_1a_apply, w7_arg6]

/-! ## The result -/

/-- After the last grid the result buffer holds the network's output of the seven arguments. -/
theorem result_eq : W9 m ρ c (Proc.devRef .tc main_v63)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((Cert.KernelIdeal.Region3.final (V8 m ρ) c (m ((c : Thread nD τ).loc main_arg6)) (w8_bias m ρ c)).trans ?_)
  unfold Cert.Gcn.out
  refine congrArg (fun Z => Cert.Gcn.logSoftmax (Cert.Gcn.addBias7 Z (m ((c : Thread nD τ).loc main_arg6)))) ?_
  refine (w8_v61 m ρ c).trans ?_
  rw [w7_v48, w7_v5, w7_v6, w7_v31]

end Cert.KernelIdeal.KernelValue

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.RefRun.lean ====
/-
  The reference program run. Its @main is a line of 142 host operations (the operations of the functions it calls
  standing in their calls' places), so every weakly fair execution terminates with each buffer at the fold of the
  operations over the launch contents. The line is read in ten stretches: the first projection, the end-point lists,
  the weights and the degrees; the choice of the inverse square root where the degree is positive; the normalised
  weights; the first aggregation plus bias; the clamp; then the same five for the second layer, ending in the row-wise
  log-softmax. Each stretch's result is a stage of the two-layer graph convolution of what it reads, so the result
  buffer ends at `Gcn.out` of the seven argument arrays, and no operation writes an argument.
-/
import proofs.«135346_j21706764714346_1_alg».proof.Proof.Gen.ReferenceIdeal
import proofs.«135346_j21706764714346_1_alg».proof.Proof.Spec
import proofs.«135346_j21706764714346_1_alg».proof.Proof.LibAfterAppend
import proofs.«135346_j21706764714346_1_alg».proof.Proof.LibTypedRefCasts
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 142 operations, in order; the operations of a called function stand in its call's place, each typed at its
    operands' tensor types. -/
abbrev ops : List (HloOp τ sig (Elt F)) :=
  [ binary main_arg0 main_arg3 main_v0 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v6 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v6 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v6 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v6 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v6 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v6 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v0 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v7 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    nullary main_v55 (iotaInDim S100000 32 0),
    binary main_v52 main_v55 main_v56 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v54 main_v55 main_v57 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v58 (broadcastInDim S100000 ![] bcast_S_S100000 : (⟨S_, .f32⟩ : BufTy).Contents (Elt F) → (⟨S100000, .f32⟩ : BufTy).Contents (Elt F)),
    binary main_arg2 main_v58 main_v59 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_10 (constant S_ .f32 0x00000000#32),
    unary main_cst_10 main_v60 (broadcastInDim S100000 ![] bcast_S_S100000 : (⟨S_, .f32⟩ : BufTy).Contents (Elt F) → (⟨S100000, .f32⟩ : BufTy).Contents (Elt F)),
    unary main_v57 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v63 (broadcastInDim S100000 ![] bcast_S_S100000 : (⟨S_, .f32⟩ : BufTy).Contents (Elt F) → (⟨S100000, .f32⟩ : BufTy).Contents (Elt F)),
    binary main_v62 main_v63 main_v64 (cmpf .ogt : (⟨S100000, .f32⟩ : BufTy).Contents (Elt F) → (⟨S100000, .f32⟩ : BufTy).Contents (Elt F) → (⟨S100000, .i1⟩ : BufTy).Contents (Elt F)),
    unary main_v62 main_v65 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v64) (TRef.of (T := ⟨S100000, .f32⟩) main_v65) (TRef.of (T := ⟨S100000, .f32⟩) main_call2_v1) (TRef.of (T := ⟨S100000, .f32⟩) main_v66) select,
    nullary main_c_13 (constantI S_ 32 0#32),
    unary main_c_13 main_v67 (broadcastInDim S3300000 ![] bcast_S_S3300000 : (⟨S_, .i32⟩ : BufTy).Contents (Elt F) → (⟨S3300000, .i32⟩ : BufTy).Contents (Elt F)),
    binary main_v56 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v69 (broadcastInDim S3300000 ![] bcast_S_S3300000 : (⟨S_, .i32⟩ : BufTy).Contents (Elt F) → (⟨S3300000, .i32⟩ : BufTy).Contents (Elt F)),
    binary main_v56 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v56 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v73 main_v59 main_v74 (mulf : (⟨S3300000, .f32⟩ : BufTy).Contents (Elt F) → (⟨S3300000, .f32⟩ : BufTy).Contents (Elt F) → (⟨S3300000, .f32⟩ : BufTy).Contents (Elt F)),
    nullary main_c_15 (constantI S_ 32 0#32),
    unary main_c_15 main_v75 (broadcastInDim S3300000 ![] bcast_S_S3300000 : (⟨S_, .i32⟩ : BufTy).Contents (Elt F) → (⟨S3300000, .i32⟩ : BufTy).Contents (Elt F)),
    binary main_v57 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v77 (broadcastInDim S3300000 ![] bcast_S_S3300000 : (⟨S_, .i32⟩ : BufTy).Contents (Elt F) → (⟨S3300000, .i32⟩ : BufTy).Contents (Elt F)),
    binary main_v57 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v57 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v66 main_v80 main_v81 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v74 main_v81 main_v82 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v83 (broadcastInDim S3300000 ![] bcast_S_S3300000 : (⟨S_, .i32⟩ : BufTy).Contents (Elt F) → (⟨S3300000, .i32⟩ : BufTy).Contents (Elt F)),
    binary main_v56 main_v83 main_v84 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v85 (broadcastInDim S3300000 ![] bcast_S_S3300000 : (⟨S_, .i32⟩ : BufTy).Contents (Elt F) → (⟨S3300000, .i32⟩ : BufTy).Contents (Elt F)),
    binary main_v56 main_v85 main_v86 (addi : (⟨S3300000, .i32⟩ : BufTy).Contents (Elt F) → (⟨S3300000, .i32⟩ : BufTy).Contents (Elt F) → (⟨S3300000, .i32⟩ : BufTy).Contents (Elt F)),
    ternary main_v84 main_v86 main_v56 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v87 main_v88 (broadcastInDim S3300000x1 ![0] bcast_S3300000_S3300000x1_0 : (⟨S3300000, .i32⟩ : BufTy).Contents (Elt F) → (⟨S3300000x1, .i32⟩ : BufTy).Contents (Elt F)),
    binary main_v50 main_v88 main_v89 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v82 main_v90 (broadcastInDim S3300000x1 ![0] bcast_S3300000_S3300000x1_0 : (⟨S3300000, .f32⟩ : BufTy).Contents (Elt F) → (⟨S3300000x1, .f32⟩ : BufTy).Contents (Elt F)),
    unary main_v90 main_v91 (broadcastInDim S3300000x7 ![0, 1] bcast_S3300000x1_S3300000x7_0_1 : (⟨S3300000x1, .f32⟩ : BufTy).Contents (Elt F) → (⟨S3300000x7, .f32⟩ : BufTy).Contents (Elt F)),
    binary main_v89 main_v91 main_v92 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v93 (broadcastInDim S100000x7 ![] bcast_S_S100000x7 : (⟨S_, .f32⟩ : BufTy).Contents (Elt F) → (⟨S100000x7, .f32⟩ : BufTy).Contents (Elt F)),
    unary main_v57 main_v94 (broadcastInDim S3300000x1 ![0] bcast_S3300000_S3300000x1_0 : (⟨S3300000, .i32⟩ : BufTy).Contents (Elt F) → (⟨S3300000x1, .i32⟩ : BufTy).Contents (Elt F)),
    ternary main_v93 main_v94 main_v92 main_v95 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg6 main_v96 (broadcastInDim S1x7 ![1] bcast_S7_S1x7_1 : (⟨S7, .f32⟩ : BufTy).Contents (Elt F) → (⟨S1x7, .f32⟩ : BufTy).Contents (Elt F)),
    unary main_v96 main_v97 (broadcastInDim S100000x7 ![0, 1] bcast_S1x7_S100000x7_0_1 : (⟨S1x7, .f32⟩ : BufTy).Contents (Elt F) → (⟨S100000x7, .f32⟩ : BufTy).Contents (Elt F)),
    binary main_v95 main_v97 main_v98 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call3_cst) (constant S_ .f32 0xFF800000#32),
    TRef.binary (TRef.of (T := ⟨S100000x7, .f32⟩) main_v98) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v98) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v99) subf ]

set_option maxRecDepth 65536 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The ten stretches -/

/-- Operations 1 … 20 of the line. -/
abbrev s1 : List (HloOp τ sig (Elt F)) :=
  [ binary main_arg0 main_arg3 main_v0 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32) ]

/-- Operations 21 … 23 of the line. -/
abbrev s2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select ]

/-- Operations 24 … 43 of the line. -/
abbrev s3 : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v6 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v6 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v6 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]

/-- Operations 44 … 62 of the line. -/
abbrev s4 : List (HloOp τ sig (Elt F)) :=
  [ nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v6 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v6 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v6 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v0 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v7 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]

/-- Operations 63 … 65 of the line. -/
abbrev s5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- Operations 66 … 85 of the line. -/
abbrev s6 : List (HloOp τ sig (Elt F)) :=
  [ binary main_v49 main_arg5 main_v50 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    nullary main_v55 (iotaInDim S100000 32 0),
    binary main_v52 main_v55 main_v56 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v54 main_v55 main_v57 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v58 (broadcastInDim S100000 ![] bcast_S_S100000 : (⟨S_, .f32⟩ : BufTy).Contents (Elt F) → (⟨S100000, .f32⟩ : BufTy).Contents (Elt F)),
    binary main_arg2 main_v58 main_v59 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_10 (constant S_ .f32 0x00000000#32),
    unary main_cst_10 main_v60 (broadcastInDim S100000 ![] bcast_S_S100000 : (⟨S_, .f32⟩ : BufTy).Contents (Elt F) → (⟨S100000, .f32⟩ : BufTy).Contents (Elt F)),
    unary main_v57 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v63 (broadcastInDim S100000 ![] bcast_S_S100000 : (⟨S_, .f32⟩ : BufTy).Contents (Elt F) → (⟨S100000, .f32⟩ : BufTy).Contents (Elt F)),
    binary main_v62 main_v63 main_v64 (cmpf .ogt : (⟨S100000, .f32⟩ : BufTy).Contents (Elt F) → (⟨S100000, .f32⟩ : BufTy).Contents (Elt F) → (⟨S100000, .i1⟩ : BufTy).Contents (Elt F)),
    unary main_v62 main_v65 (Host.rsqrt : (⟨S100000, .f32⟩ : BufTy).Contents (Elt F) → (⟨S100000, .f32⟩ : BufTy).Contents (Elt F)),
    nullary main_cst_12 (constant S_ .f32 0x00000000#32) ]

/-- Operations 86 … 88 of the line. -/
abbrev s7 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v64) (TRef.of (T := ⟨S100000, .f32⟩) main_v65) (TRef.of (T := ⟨S100000, .f32⟩) main_call2_v1) (TRef.of (T := ⟨S100000, .f32⟩) main_v66) select ]

/-- Operations 89 … 108 of the line. -/
abbrev s8 : List (HloOp τ sig (Elt F)) :=
  [ nullary main_c_13 (constantI S_ 32 0#32),
    unary main_c_13 main_v67 (broadcastInDim S3300000 ![] bcast_S_S3300000 : (⟨S_, .i32⟩ : BufTy).Contents (Elt F) → (⟨S3300000, .i32⟩ : BufTy).Contents (Elt F)),
    binary main_v56 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v69 (broadcastInDim S3300000 ![] bcast_S_S3300000 : (⟨S_, .i32⟩ : BufTy).Contents (Elt F) → (⟨S3300000, .i32⟩ : BufTy).Contents (Elt F)),
    binary main_v56 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v56 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v73 main_v59 main_v74 (mulf : (⟨S3300000, .f32⟩ : BufTy).Contents (Elt F) → (⟨S3300000, .f32⟩ : BufTy).Contents (Elt F) → (⟨S3300000, .f32⟩ : BufTy).Contents (Elt F)),
    nullary main_c_15 (constantI S_ 32 0#32),
    unary main_c_15 main_v75 (broadcastInDim S3300000 ![] bcast_S_S3300000 : (⟨S_, .i32⟩ : BufTy).Contents (Elt F) → (⟨S3300000, .i32⟩ : BufTy).Contents (Elt F)),
    binary main_v57 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v77 (broadcastInDim S3300000 ![] bcast_S_S3300000 : (⟨S_, .i32⟩ : BufTy).Contents (Elt F) → (⟨S3300000, .i32⟩ : BufTy).Contents (Elt F)),
    binary main_v57 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v57 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v66 main_v80 main_v81 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v74 main_v81 main_v82 (mulf : (⟨S3300000, .f32⟩ : BufTy).Contents (Elt F) → (⟨S3300000, .f32⟩ : BufTy).Contents (Elt F) → (⟨S3300000, .f32⟩ : BufTy).Contents (Elt F)) ]

/-- Operations 109 … 127 of the line. -/
abbrev s9 : List (HloOp τ sig (Elt F)) :=
  [ nullary main_c_17 (constantI S_ 32 0#32),
    unary main_c_17 main_v83 (broadcastInDim S3300000 ![] bcast_S_S3300000 : (⟨S_, .i32⟩ : BufTy).Contents (Elt F) → (⟨S3300000, .i32⟩ : BufTy).Contents (Elt F)),
    binary main_v56 main_v83 main_v84 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v85 (broadcastInDim S3300000 ![] bcast_S_S3300000 : (⟨S_, .i32⟩ : BufTy).Contents (Elt F) → (⟨S3300000, .i32⟩ : BufTy).Contents (Elt F)),
    binary main_v56 main_v85 main_v86 (addi : (⟨S3300000, .i32⟩ : BufTy).Contents (Elt F) → (⟨S3300000, .i32⟩ : BufTy).Contents (Elt F) → (⟨S3300000, .i32⟩ : BufTy).Contents (Elt F)),
    ternary main_v84 main_v86 main_v56 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v87 main_v88 (broadcastInDim S3300000x1 ![0] bcast_S3300000_S3300000x1_0 : (⟨S3300000, .i32⟩ : BufTy).Contents (Elt F) → (⟨S3300000x1, .i32⟩ : BufTy).Contents (Elt F)),
    binary main_v50 main_v88 main_v89 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v82 main_v90 (broadcastInDim S3300000x1 ![0] bcast_S3300000_S3300000x1_0 : (⟨S3300000, .f32⟩ : BufTy).Contents (Elt F) → (⟨S3300000x1, .f32⟩ : BufTy).Contents (Elt F)),
    unary main_v90 main_v91 (broadcastInDim S3300000x7 ![0, 1] bcast_S3300000x1_S3300000x7_0_1 : (⟨S3300000x1, .f32⟩ : BufTy).Contents (Elt F) → (⟨S3300000x7, .f32⟩ : BufTy).Contents (Elt F)),
    binary main_v89 main_v91 main_v92 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v93 (broadcastInDim S100000x7 ![] bcast_S_S100000x7 : (⟨S_, .f32⟩ : BufTy).Contents (Elt F) → (⟨S100000x7, .f32⟩ : BufTy).Contents (Elt F)),
    unary main_v57 main_v94 (broadcastInDim S3300000x1 ![0] bcast_S3300000_S3300000x1_0 : (⟨S3300000, .i32⟩ : BufTy).Contents (Elt F) → (⟨S3300000x1, .i32⟩ : BufTy).Contents (Elt F)),
    ternary main_v93 main_v94 main_v92 main_v95 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg6 main_v96 (broadcastInDim S1x7 ![1] bcast_S7_S1x7_1 : (⟨S7, .f32⟩ : BufTy).Contents (Elt F) → (⟨S1x7, .f32⟩ : BufTy).Contents (Elt F)),
    unary main_v96 main_v97 (broadcastInDim S100000x7 ![0, 1] bcast_S1x7_S100000x7_0_1 : (⟨S1x7, .f32⟩ : BufTy).Contents (Elt F) → (⟨S100000x7, .f32⟩ : BufTy).Contents (Elt F)),
    binary main_v95 main_v97 main_v98 (addf : (⟨S100000x7, .f32⟩ : BufTy).Contents (Elt F) → (⟨S100000x7, .f32⟩ : BufTy).Contents (Elt F) → (⟨S100000x7, .f32⟩ : BufTy).Contents (Elt F)) ]

/-- Operations 128 … 142 of the line. -/
abbrev s10 : List (HloOp τ sig (Elt F)) :=
  [ TRef.nullary (TRef.of (T := ⟨S_, .f32⟩) main_call3_cst) (constant S_ .f32 0xFF800000#32),
    TRef.binary (TRef.of (T := ⟨S100000x7, .f32⟩) main_v98) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v98) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v99) subf ]

set_option maxRecDepth 65536 in
set_option maxHeartbeats 40000000 in
/-- The line is its ten stretches in order. -/
theorem ops_split : (ops : List (HloOp τ sig (Elt F))) = s1 ++ s2 ++ s3 ++ s4 ++ s5 ++ s6 ++ s7 ++ s8 ++ s9 ++ s10 := rfl

/-- So the contents after the line are those after the stretches run one after the other. -/
theorem after_ops (V : Valuation τ sig (Elt F)) :
    after ops V = after s10 (after s9 (after s8 (after s7 (after s6 (after s5 (after s4 (after s3 (after s2 (after s1 V))))))))) := by
  rw [ops_split]
  simp only [Cert.LibAfterAppend.after_append]

/-- The row-wise log-softmax chain over any float values. -/
def lsmG (Z : FVec F S100000x7 .f32) : FVec F S100000x7 .f32 :=
  subf
    (subf Z (broadcastInDim S100000x7 ![0, 1] Facts₀.bcast_S100000x1_S100000x7_0_1 (broadcastInDim S100000x1 ![0] Facts₀.bcast_S100000_S100000x1_0
      (maximumf (broadcastInDim S100000 ![] Facts₀.bcast_S_S100000 (constant (F := F) S_ .f32 0xFF800000#32))
        (Host.reduce FloatOps.maximumf Z (constant (F := F) S_ .f32 0xFF800000#32) Facts₀.reducesTo_S100000x7_S100000_d1 Facts₀.h_S_)))))
    (broadcastInDim S100000x7 ![0, 1] Facts₀.bcast_S100000x1_S100000x7_0_1 (Host.log (broadcastInDim S100000x1 ![0] Facts₀.bcast_S100000_S100000x1_0
      (Host.reduceAdd
        (Host.exp (subf Z (broadcastInDim S100000x7 ![0, 1] Facts₀.bcast_S100000x1_S100000x7_0_1 (broadcastInDim S100000x1 ![0] Facts₀.bcast_S100000_S100000x1_0
          (maximumf (broadcastInDim S100000 ![] Facts₀.bcast_S_S100000 (constant (F := F) S_ .f32 0xFF800000#32))
            (Host.reduce FloatOps.maximumf Z (constant (F := F) S_ .f32 0xFF800000#32) Facts₀.reducesTo_S100000x7_S100000_d1 Facts₀.h_S_))))))
        (constant (F := F) S_ .f32 0x00000000#32) Facts₀.reducesTo_S100000x7_S100000_d1 Facts₀.h_S_))))

/-- The last stretch over any float values: the stored-and-read-back intermediate values are the values themselves, so
    the result is the chain applied to what the stretch reads. -/
theorem softmaxG (X : Valuation τ sig (Elt F)) : after (s10 (F := F)) X (Proc.devRef .tc main_v99) = lsmG (X (Proc.devRef .tc main_v98)) := by
  unfold lsmG
  after_results_simp
  simp only [Cert.LibTypedRefCasts.ofBuf_toBuf]
  have e : ∀ (h1 h2 h3), (TRef.of (T := ⟨S100000x7, .f32⟩) main_v98 h1 h2 h3).ofBuf (X (Proc.devRef .tc main_v98)) = X (Proc.devRef .tc main_v98) := fun _ _ _ => rfl
  simp only [e]
  rfl

section Values

set_option maxRecDepth 65536
set_option maxHeartbeats 8000000

variable (m : (ℓ : Loc nD τ sig) → Buf (Elt Ideal) ℓ) (c : Dev nD)

/-- The contents after the first k stretches. -/
abbrev Y1 : Valuation τ sig (Elt Ideal) := after s1 (launchContents m c)
abbrev Y2 : Valuation τ sig (Elt Ideal) := after s2 (Y1 m c)
abbrev Y3 : Valuation τ sig (Elt Ideal) := after s3 (Y2 m c)
abbrev Y4 : Valuation τ sig (Elt Ideal) := after s4 (Y3 m c)
abbrev Y5 : Valuation τ sig (Elt Ideal) := after s5 (Y4 m c)
abbrev Y6 : Valuation τ sig (Elt Ideal) := after s6 (Y5 m c)
abbrev Y7 : Valuation τ sig (Elt Ideal) := after s7 (Y6 m c)
abbrev Y8 : Valuation τ sig (Elt Ideal) := after s8 (Y7 m c)
abbrev Y9 : Valuation τ sig (Elt Ideal) := after s9 (Y8 m c)

/-! ### The stretches from any entry contents -/

/-- The choice between the inverse square root and the zero constant, from what the stretch reads. -/
theorem choose1 (X : Valuation τ sig (Elt Ideal)) : after s2 X (Proc.devRef .tc main_v16)
    = select (X (Proc.devRef .tc main_v14)) (X (Proc.devRef .tc main_v15)) (broadcastInDim S100000 ![] Facts₀.bcast_S_S100000 (id (X (Proc.devRef .tc main_cst_2)))) := by
  after_results_simp <;> rfl

theorem choose2 (X : Valuation τ sig (Elt Ideal)) : after s7 X (Proc.devRef .tc main_v66)
    = select (X (Proc.devRef .tc main_v64)) (X (Proc.devRef .tc main_v65)) (broadcastInDim S100000 ![] Facts₀.bcast_S_S100000 (id (X (Proc.devRef .tc main_cst_12)))) := by
  after_results_simp <;> rfl

/-- The normalised weights from the per-node factor, the end points and the weights. -/
theorem norm1 (X : Valuation τ sig (Elt Ideal)) : after s3 X (Proc.devRef .tc main_v32)
    = mulf (mulf (Cert.Gcn.atNodes (X (Proc.devRef .tc main_v16)) (X (Proc.devRef .tc main_v6))) (X (Proc.devRef .tc main_v9))) (Cert.Gcn.atNodes (X (Proc.devRef .tc main_v16)) (X (Proc.devRef .tc main_v7))) := by
  unfold Cert.Gcn.atNodes Cert.Gcn.wrap
  after_results_simp <;> rfl

theorem norm2 (X : Valuation τ sig (Elt Ideal)) : after s8 X (Proc.devRef .tc main_v82)
    = mulf (mulf (Cert.Gcn.atNodes (X (Proc.devRef .tc main_v66)) (X (Proc.devRef .tc main_v56))) (X (Proc.devRef .tc main_v59))) (Cert.Gcn.atNodes (X (Proc.devRef .tc main_v66)) (X (Proc.devRef .tc main_v57))) := by
  unfold Cert.Gcn.atNodes Cert.Gcn.wrap
  after_results_simp <;> rfl

/-- An aggregation plus the bias row. -/
theorem agg1 (X : Valuation τ sig (Elt Ideal)) : after s4 X (Proc.devRef .tc main_v48)
    = addf (Cert.Gcn.aggregate16 (X (Proc.devRef .tc main_v0)) (X (Proc.devRef .tc main_v6)) (X (Proc.devRef .tc main_v7)) (X (Proc.devRef .tc main_v32)))
        (broadcastInDim S100000x16 ![0, 1] Facts₀.bcast_S1x16_S100000x16_0_1 (broadcastInDim S1x16 ![1] Facts₀.bcast_S16_S1x16_1 (X (Proc.devRef .tc main_arg4)))) := by
  unfold Cert.Gcn.aggregate16 Cert.Gcn.wrap
  after_results_simp <;> rfl

theorem agg2 (X : Valuation τ sig (Elt Ideal)) : after s9 X (Proc.devRef .tc main_v98)
    = Cert.Gcn.addBias7 (Cert.Gcn.aggregate7 (X (Proc.devRef .tc main_v50)) (X (Proc.devRef .tc main_v56)) (X (Proc.devRef .tc main_v57)) (X (Proc.devRef .tc main_v82))) (X (Proc.devRef .tc main_arg6)) := by
  unfold Cert.Gcn.addBias7 Cert.Gcn.aggregate7 Cert.Gcn.wrap
  after_results_simp <;> rfl

/-- The clamp below at zero. -/
theorem clamp (X : Valuation τ sig (Elt Ideal)) : after s5 X (Proc.devRef .tc main_v49)
    = maximumf (X (Proc.devRef .tc main_v48)) (broadcastInDim S100000x16 ![] Facts₀.bcast_S_S100000x16 (constant (F := Ideal) S_ .f32 0x00000000#32)) := by
  after_results_simp <;> rfl

/-- The second projection. -/
theorem proj2 (X : Valuation τ sig (Elt Ideal)) : after s6 X (Proc.devRef .tc main_v50) = Cert.Gcn.project2 (X (Proc.devRef .tc main_v49)) (X (Proc.devRef .tc main_arg5)) := by
  unfold Cert.Gcn.project2
  after_results_simp <;> rfl

/-- The row-wise log-softmax. -/
theorem softmax (X : Valuation τ sig (Elt Ideal)) : after s10 X (Proc.devRef .tc main_v99) = Cert.Gcn.logSoftmax (X (Proc.devRef .tc main_v98)) :=
  (softmaxG X).trans (by unfold lsmG Cert.Gcn.logSoftmax Cert.RowWise.hostLogSoftmax; rfl)

/-- The second projection's result is left alone by the two stretches after it. -/
theorem keep7 (X : Valuation τ sig (Elt Ideal)) : after s7 X (Proc.devRef .tc main_v50) = X (Proc.devRef .tc main_v50) := by
  after_results_simp <;> rfl
theorem keep8 (X : Valuation τ sig (Elt Ideal)) : after s8 X (Proc.devRef .tc main_v50) = X (Proc.devRef .tc main_v50) := by
  after_results_simp <;> rfl

/-! ### The first layer -/

theorem y1_v14 : Y1 m c (Proc.devRef .tc main_v14) = cmpf .ogt (Cert.Gcn.degree (Cert.Gcn.dst (m ((c.tc : Thread nD τ).loc main_arg1))) (Cert.Gcn.weights (m ((c.tc : Thread nD τ).loc main_arg2)))) (broadcastInDim S100000 ![] Facts₀.bcast_S_S100000 (constant (F := Ideal) S_ .f32 0x00000000#32)) := by
  show after s1 (launchContents m c) (Proc.devRef .tc main_v14) = _
  unfold Cert.Gcn.degree Cert.Gcn.dst Cert.Gcn.weights
  after_results_simp <;> rfl
theorem y1_v15 : Y1 m c (Proc.devRef .tc main_v15) = Host.rsqrt (F := Ideal) (Cert.Gcn.degree (Cert.Gcn.dst (m ((c.tc : Thread nD τ).loc main_arg1))) (Cert.Gcn.weights (m ((c.tc : Thread nD τ).loc main_arg2)))) := by
  show after s1 (launchContents m c) (Proc.devRef .tc main_v15) = _
  unfold Cert.Gcn.degree Cert.Gcn.dst Cert.Gcn.weights
  after_results_simp <;> rfl
theorem y1_cst2 : Y1 m c (Proc.devRef .tc main_cst_2) = (constant (F := Ideal) S_ .f32 0x00000000#32) := by
  show after s1 (launchContents m c) (Proc.devRef .tc main_cst_2) = _
  after_results_simp <;> rfl

theorem y2_v16 : Y2 m c (Proc.devRef .tc main_v16) = Cert.Gcn.invSqrt (Cert.Gcn.degree (Cert.Gcn.dst (m ((c.tc : Thread nD τ).loc main_arg1))) (Cert.Gcn.weights (m ((c.tc : Thread nD τ).loc main_arg2)))) := by
  refine (choose1 (Y1 m c)).trans ?_
  rw [y1_v14, y1_v15, y1_cst2]
  rfl

theorem y2_v6 : Y2 m c (Proc.devRef .tc main_v6) = (Cert.Gcn.src (m ((c.tc : Thread nD τ).loc main_arg1))) := by
  show after s2 (after s1 (launchContents m c)) (Proc.devRef .tc main_v6) = _
  unfold Cert.Gcn.src
  after_results_simp <;> rfl
theorem y2_v7 : Y2 m c (Proc.devRef .tc main_v7) = (Cert.Gcn.dst (m ((c.tc : Thread nD τ).loc main_arg1))) := by
  show after s2 (after s1 (launchContents m c)) (Proc.devRef .tc main_v7) = _
  unfold Cert.Gcn.dst
  after_results_simp <;> rfl
theorem y2_v9 : Y2 m c (Proc.devRef .tc main_v9) = (Cert.Gcn.weights (m ((c.tc : Thread nD τ).loc main_arg2))) := by
  show after s2 (after s1 (launchContents m c)) (Proc.devRef .tc main_v9) = _
  unfold Cert.Gcn.weights
  after_results_simp <;> rfl

theorem y3_v32 : Y3 m c (Proc.devRef .tc main_v32) = (Cert.Gcn.normOf (Cert.Gcn.src (m ((c.tc : Thread nD τ).loc main_arg1))) (Cert.Gcn.dst (m ((c.tc : Thread nD τ).loc main_arg1))) (Cert.Gcn.weights (m ((c.tc : Thread nD τ).loc main_arg2)))) := by
  refine (norm1 (Y2 m c)).trans ?_
  rw [y2_v16, y2_v6, y2_v7, y2_v9]
  rfl

theorem y3_v0 : Y3 m c (Proc.devRef .tc main_v0) = (Cert.Gcn.project1 (m ((c.tc : Thread nD τ).loc main_arg0)) (m ((c.tc : Thread nD τ).loc main_arg3))) := by
  show after s3 (after s2 (after s1 (launchContents m c))) (Proc.devRef .tc main_v0) = _
  unfold Cert.Gcn.project1
  after_results_simp <;> rfl
theorem y3_v6 : Y3 m c (Proc.devRef .tc main_v6) = (Cert.Gcn.src (m ((c.tc : Thread nD τ).loc main_arg1))) := by
  show after s3 (after s2 (after s1 (launchContents m c))) (Proc.devRef .tc main_v6) = _
  unfold Cert.Gcn.src
  after_results_simp <;> rfl
theorem y3_v7 : Y3 m c (Proc.devRef .tc main_v7) = (Cert.Gcn.dst (m ((c.tc : Thread nD τ).loc main_arg1))) := by
  show after s3 (after s2 (after s1 (launchContents m c))) (Proc.devRef .tc main_v7) = _
  unfold Cert.Gcn.dst
  after_results_simp <;> rfl
theorem y3_arg4 : Y3 m c (Proc.devRef .tc main_arg4) = (m ((c.tc : Thread nD τ).loc main_arg4)) := by
  show after s3 (after s2 (after s1 (launchContents m c))) (Proc.devRef .tc main_arg4) = _
  after_results_simp <;> rfl

theorem y4_v48 : Y4 m c (Proc.devRef .tc main_v48)
    = addf (Cert.Gcn.aggregate16 (Cert.Gcn.project1 (m ((c.tc : Thread nD τ).loc main_arg0)) (m ((c.tc : Thread nD τ).loc main_arg3))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (broadcastInDim S100000x16 ![0, 1] Facts₀.bcast_S1x16_S100000x16_0_1 (broadcastInDim S1x16 ![1] Facts₀.bcast_S16_S1x16_1 (m ((c.tc : Thread nD τ).loc main_arg4)))) := by
  refine (agg1 (Y3 m c)).trans ?_
  rw [y3_v0, y3_v6, y3_v7, y3_v32, y3_arg4]

theorem y5_v49 : Y5 m c (Proc.devRef .tc main_v49) = (Cert.Gcn.biasRelu (Cert.Gcn.aggregate16 (Cert.Gcn.project1 (m ((c.tc : Thread nD τ).loc main_arg0)) (m ((c.tc : Thread nD τ).loc main_arg3))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (m ((c.tc : Thread nD τ).loc main_arg4))) := by
  refine (clamp (Y4 m c)).trans ?_
  rw [y4_v48]
  rfl

/-! ### The second layer -/

theorem y5_arg5 : Y5 m c (Proc.devRef .tc main_arg5) = (m ((c.tc : Thread nD τ).loc main_arg5)) := by
  show after s5 (after s4 (after s3 (after s2 (after s1 (launchContents m c))))) (Proc.devRef .tc main_arg5) = _
  after_results_simp <;> rfl

theorem y6_v50 : Y6 m c (Proc.devRef .tc main_v50) = (Cert.Gcn.project2 (Cert.Gcn.biasRelu (Cert.Gcn.aggregate16 (Cert.Gcn.project1 (m ((c.tc : Thread nD τ).loc main_arg0)) (m ((c.tc : Thread nD τ).loc main_arg3))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (m ((c.tc : Thread nD τ).loc main_arg4))) (m ((c.tc : Thread nD τ).loc main_arg5))) := by
  refine (proj2 (Y5 m c)).trans ?_
  rw [y5_v49, y5_arg5]

theorem y6_v64 : Y6 m c (Proc.devRef .tc main_v64) = cmpf .ogt (Cert.Gcn.degree (Cert.Gcn.dst (m ((c.tc : Thread nD τ).loc main_arg1))) (Cert.Gcn.weights (m ((c.tc : Thread nD τ).loc main_arg2)))) (broadcastInDim S100000 ![] Facts₀.bcast_S_S100000 (constant (F := Ideal) S_ .f32 0x00000000#32)) := by
  show after s6 (after s5 (after s4 (after s3 (after s2 (after s1 (launchContents m c)))))) (Proc.devRef .tc main_v64) = _
  unfold Cert.Gcn.degree Cert.Gcn.dst Cert.Gcn.weights
  after_results_simp <;> rfl
theorem y6_v65 : Y6 m c (Proc.devRef .tc main_v65) = Host.rsqrt (F := Ideal) (Cert.Gcn.degree (Cert.Gcn.dst (m ((c.tc : Thread nD τ).loc main_arg1))) (Cert.Gcn.weights (m ((c.tc : Thread nD τ).loc main_arg2)))) := by
  show after s6 (after s5 (after s4 (after s3 (after s2 (after s1 (launchContents m c)))))) (Proc.devRef .tc main_v65) = _
  unfold Cert.Gcn.degree Cert.Gcn.dst Cert.Gcn.weights
  after_results_simp <;> rfl
theorem y6_cst12 : Y6 m c (Proc.devRef .tc main_cst_12) = (constant (F := Ideal) S_ .f32 0x00000000#32) := by
  show after s6 (after s5 (after s4 (after s3 (after s2 (after s1 (launchContents m c)))))) (Proc.devRef .tc main_cst_12) = _
  after_results_simp <;> rfl

theorem y7_v66 : Y7 m c (Proc.devRef .tc main_v66) = Cert.Gcn.invSqrt (Cert.Gcn.degree (Cert.Gcn.dst (m ((c.tc : Thread nD τ).loc main_arg1))) (Cert.Gcn.weights (m ((c.tc : Thread nD τ).loc main_arg2)))) := by
  refine (choose2 (Y6 m c)).trans ?_
  rw [y6_v64, y6_v65, y6_cst12]
  rfl

theorem y7_v56 : Y7 m c (Proc.devRef .tc main_v56) = (Cert.Gcn.src (m ((c.tc : Thread nD τ).loc main_arg1))) := by
  show after s7 (after s6 (after s5 (after s4 (after s3 (after s2 (after s1 (launchContents m c))))))) (Proc.devRef .tc main_v56) = _
  unfold Cert.Gcn.src
  after_results_simp <;> rfl
theorem y7_v57 : Y7 m c (Proc.devRef .tc main_v57) = (Cert.Gcn.dst (m ((c.tc : Thread nD τ).loc main_arg1))) := by
  show after s7 (after s6 (after s5 (after s4 (after s3 (after s2 (after s1 (launchContents m c))))))) (Proc.devRef .tc main_v57) = _
  unfold Cert.Gcn.dst
  after_results_simp <;> rfl
theorem y7_v59 : Y7 m c (Proc.devRef .tc main_v59) = (Cert.Gcn.weights (m ((c.tc : Thread nD τ).loc main_arg2))) := by
  show after s7 (after s6 (after s5 (after s4 (after s3 (after s2 (after s1 (launchContents m c))))))) (Proc.devRef .tc main_v59) = _
  unfold Cert.Gcn.weights
  after_results_simp <;> rfl

theorem y8_v82 : Y8 m c (Proc.devRef .tc main_v82) = (Cert.Gcn.normOf (Cert.Gcn.src (m ((c.tc : Thread nD τ).loc main_arg1))) (Cert.Gcn.dst (m ((c.tc : Thread nD τ).loc main_arg1))) (Cert.Gcn.weights (m ((c.tc : Thread nD τ).loc main_arg2)))) := by
  refine (norm2 (Y7 m c)).trans ?_
  rw [y7_v66, y7_v56, y7_v57, y7_v59]
  rfl

theorem y8_v50 : Y8 m c (Proc.devRef .tc main_v50) = (Cert.Gcn.project2 (Cert.Gcn.biasRelu (Cert.Gcn.aggregate16 (Cert.Gcn.project1 (m ((c.tc : Thread nD τ).loc main_arg0)) (m ((c.tc : Thread nD τ).loc main_arg3))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (m ((c.tc : Thread nD τ).loc main_arg4))) (m ((c.tc : Thread nD τ).loc main_arg5))) :=
  (keep8 (Y7 m c)).trans ((keep7 (Y6 m c)).trans (y6_v50 m c))

theorem y8_v56 : Y8 m c (Proc.devRef .tc main_v56) = (Cert.Gcn.src (m ((c.tc : Thread nD τ).loc main_arg1))) := by
  show after s8 (after s7 (after s6 (after s5 (after s4 (after s3 (after s2 (after s1 (launchContents m c)))))))) (Proc.devRef .tc main_v56) = _
  unfold Cert.Gcn.src
  after_results_simp <;> rfl
theorem y8_v57 : Y8 m c (Proc.devRef .tc main_v57) = (Cert.Gcn.dst (m ((c.tc : Thread nD τ).loc main_arg1))) := by
  show after s8 (after s7 (after s6 (after s5 (after s4 (after s3 (after s2 (after s1 (launchContents m c)))))))) (Proc.devRef .tc main_v57) = _
  unfold Cert.Gcn.dst
  after_results_simp <;> rfl
theorem y8_arg6 : Y8 m c (Proc.devRef .tc main_arg6) = (m ((c.tc : Thread nD τ).loc main_arg6)) := by
  show after s8 (after s7 (after s6 (after s5 (after s4 (after s3 (after s2 (after s1 (launchContents m c)))))))) (Proc.devRef .tc main_arg6) = _
  after_results_simp <;> rfl

theorem y9_v98 : Y9 m c (Proc.devRef .tc main_v98) = (Cert.Gcn.addBias7 (Cert.Gcn.aggregate7 (Cert.Gcn.project2 (Cert.Gcn.biasRelu (Cert.Gcn.aggregate16 (Cert.Gcn.project1 (m ((c.tc : Thread nD τ).loc main_arg0)) (m ((c.tc : Thread nD τ).loc main_arg3))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (m ((c.tc : Thread nD τ).loc main_arg4))) (m ((c.tc : Thread nD τ).loc main_arg5))) (Cert.Gcn.src (m ((c.tc : Thread nD τ).loc main_arg1))) (Cert.Gcn.dst (m ((c.tc : Thread nD τ).loc main_arg1))) (Cert.Gcn.normOf (Cert.Gcn.src (m ((c.tc : Thread nD τ).loc main_arg1))) (Cert.Gcn.dst (m ((c.tc : Thread nD τ).loc main_arg1))) (Cert.Gcn.weights (m ((c.tc : Thread nD τ).loc main_arg2))))) (m ((c.tc : Thread nD τ).loc main_arg6))) := by
  refine (agg2 (Y8 m c)).trans ?_
  rw [y8_v50, y8_v56, y8_v57, y8_v82, y8_arg6]

/-- The result buffer after the 142 operations: the network's output of the launch contents of the arguments. -/
theorem value_eq : after (ops (F := Ideal)) (launchContents m c) (Proc.devRef .tc main_v99)
    = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_ops]
  refine (softmax (Y9 m c)).trans ?_
  rw [y9_v98]
  rfl

end Values

set_option maxRecDepth 65536 in
set_option maxHeartbeats 400000000 in
/-- From any memory with zero counters, every weakly fair execution of the reference terminates with the result at
    `Gcn.out` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v99).trans (value_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.lean ====
/-
  A two-layer graph convolution computed two ways is one function of its inputs on the extended reals.

  Both programs compute out = logSoftmax (aggregate (relu (aggregate (x·W1) + b1) · W2) + b2) over the same graph
  (`Cert.Gcn.out`): the same end-point lists, edge weights with self-loops, degree normalisation and aggregation, by
  the same host operations. They differ in where the dense stages run. One program runs the two projections, the
  bias-and-clamp and the bias-and-log-softmax as grids of ten row blocks of 10000 nodes; the other runs them as whole
  array operations. Each of these stages computes a node's output row from that node's input row alone (an entry of a
  matrix product reads one row of the left factor; the clamp reads one entry; a row's log-softmax reads one row), so a
  block of rows computed by itself is the corresponding block of the whole array's stage, and ten blocks tile the
  100000 rows. Narrowing the operands of a product to a shorter float format changes no exact value, a product
  accumulated into zero is the plain product, and a maximum with -∞ is the identity. No law used needs an input to be
  finite, so the precondition is never opened.

  The frame claims are the programs' runs with the results dropped; the idealization rewrote no operation.
-/
import proofs.«135346_j21706764714346_1_alg».proof.Defs
import proofs.«135346_j21706764714346_1_alg».proof.Proof.Gen.Kernel
import proofs.«135346_j21706764714346_1_alg».proof.Proof.Gen.Kernel.Skeleton
import proofs.«135346_j21706764714346_1_alg».proof.Proof.Gen.Kernel.Launch
import proofs.«135346_j21706764714346_1_alg».proof.Proof.Gen.Kernel.Points
import proofs.«135346_j21706764714346_1_alg».proof.Proof.Gen.Kernel.Frame
import proofs.«135346_j21706764714346_1_alg».proof.Proof.Gen.KernelIdeal
import proofs.«135346_j21706764714346_1_alg».proof.Proof.Gen.KernelIdeal.Skeleton
import proofs.«135346_j21706764714346_1_alg».proof.Proof.Gen.KernelIdeal.Launch
import proofs.«135346_j21706764714346_1_alg».proof.Proof.Gen.KernelIdeal.Points
import proofs.«135346_j21706764714346_1_alg».proof.Proof.Gen.KernelIdeal.Frame
import proofs.«135346_j21706764714346_1_alg».proof.Proof.Gen.ReferenceIdeal
import proofs.«135346_j21706764714346_1_alg».proof.Proof.Gen.Pre_finite_inputs
import proofs.«135346_j21706764714346_1_alg».proof.Proof.ValueRun
import proofs.«135346_j21706764714346_1_alg».proof.Proof.KernelValue
import proofs.«135346_j21706764714346_1_alg».proof.Proof.RefRun
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read at exact values. -/
theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end with the network's output of those arguments. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result_eq m ρ c), (h c).2⟩)
      (Cert.KernelIdeal.ValueRun.run_result m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
